-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v95)) (v3 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v95) = v2 c
          ∧ r.2.mem ((c.tc : Thread Cert.KernelIdeal.nD Cert.KernelIdeal.τ).loc Cert.KernelIdeal.main_v95) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v112) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256 .f32) (main_arg7 : FVec F S256x128 .f32) (main_arg8 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x256 .f32) (main_arg1 : IVec S800000 32) (main_arg2 : IVec S800000 32) (main_arg3 : FVec F S256x256 .f32) (main_arg4 : FVec F S256 .f32) (main_arg5 : FVec F S256x256 .f32) (main_arg6 : FVec F S256 .f32) (main_arg7 : FVec F S256x128 .f32) (main_arg8 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x256 : Shape := ⟨2, ![2000, 256]⟩
abbrev S2000x1 : Shape := ⟨2, ![2000, 1]⟩
abbrev S800000x256 : Shape := ⟨2, ![800000, 256]⟩
abbrev S1x256 : Shape := ⟨2, ![1, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 153
  | .vmem => 42
  | .smem => 0
  | _ => 0

abbrev hbmTy0_0 (i : Nat) : BufTy := match i % 128 with
  | 0 => ⟨S50000x256, .f32⟩
  | 1 => ⟨S800000, .i32⟩
  | 2 => ⟨S800000, .i32⟩
  | 3 => ⟨S256x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .i1⟩
  | 32 => ⟨S_, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x256, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x256, .f32⟩
  | 50 => ⟨S_, .f32⟩
  | 51 => ⟨S50000x256, .f32⟩
  | 52 => ⟨S800000x1, .i32⟩
  | 53 => ⟨S50000x256, .f32⟩
  | 54 => ⟨S50000x1, .f32⟩
  | 55 => ⟨S1x256, .f32⟩
  | 56 => ⟨S50000x256, .f32⟩
  | 57 => ⟨S_, .f32⟩
  | 58 => ⟨S800000, .f32⟩
  | 59 => ⟨S_, .f32⟩
  | 60 => ⟨S50000, .f32⟩
  | 61 => ⟨S800000x1, .i32⟩
  | 62 => ⟨S50000, .f32⟩
  | 63 => ⟨S_, .f32⟩
  | 64 => ⟨S50000, .f32⟩
  | 65 => ⟨S800000x1, .i32⟩
  | 66 => ⟨S50000, .f32⟩
  | 67 => ⟨S_, .f32⟩
  | 68 => ⟨S50000, .f32⟩
  | 69 => ⟨S50000, .i1⟩
  | 70 => ⟨S_, .f32⟩
  | 71 => ⟨S_, .f32⟩
  | 72 => ⟨S50000, .f32⟩
  | 73 => ⟨S50000, .f32⟩
  | 74 => ⟨S_, .f32⟩
  | 75 => ⟨S50000, .f32⟩
  | 76 => ⟨S50000, .f32⟩
  | 77 => ⟨S_, .f32⟩
  | 78 => ⟨S50000, .f32⟩
  | 79 => ⟨S50000, .i1⟩
  | 80 => ⟨S_, .f32⟩
  | 81 => ⟨S_, .f32⟩
  | 82 => ⟨S50000, .f32⟩
  | 83 => ⟨S50000, .f32⟩
  | 84 => ⟨S_, .f32⟩
  | 85 => ⟨S50000, .f32⟩
  | 86 => ⟨S50000, .f32⟩
  | 87 => ⟨S50000x1, .f32⟩
  | 88 => ⟨S50000x256, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x256, .f32⟩
  | 98 => ⟨S_, .f32⟩
  | 99 => ⟨S50000x256, .f32⟩
  | 100 => ⟨S800000x1, .i32⟩
  | 101 => ⟨S50000x256, .f32⟩
  | 102 => ⟨S50000x1, .f32⟩
  | 103 => ⟨S1x256, .f32⟩
  | 104 => ⟨S50000x256, .f32⟩
  | 105 => ⟨S_, .f32⟩
  | 106 => ⟨S800000, .f32⟩
  | 107 => ⟨S_, .f32⟩
  | 108 => ⟨S50000, .f32⟩
  | 109 => ⟨S800000x1, .i32⟩
  | 110 => ⟨S50000, .f32⟩
  | 111 => ⟨S_, .f32⟩
  | 112 => ⟨S50000, .f32⟩
  | 113 => ⟨S800000x1, .i32⟩
  | 114 => ⟨S50000, .f32⟩
  | 115 => ⟨S_, .f32⟩
  | 116 => ⟨S50000, .f32⟩
  | 117 => ⟨S50000, .i1⟩
  | 118 => ⟨S_, .f32⟩
  | 119 => ⟨S_, .f32⟩
  | 120 => ⟨S50000, .f32⟩
  | 121 => ⟨S50000, .f32⟩
  | 122 => ⟨S_, .f32⟩
  | 123 => ⟨S50000, .f32⟩
  | 124 => ⟨S50000, .f32⟩
  | 125 => ⟨S_, .f32⟩
  | 126 => ⟨S50000, .f32⟩
  | 127 => ⟨S50000, .i1⟩
  | _ => ⟨S50000x256, .f32⟩

abbrev hbmTy0_1 (i : Nat) : BufTy := match i % 128 with
  | 0 => ⟨S_, .f32⟩
  | 1 => ⟨S_, .f32⟩
  | 2 => ⟨S50000, .f32⟩
  | 3 => ⟨S50000, .f32⟩
  | 4 => ⟨S_, .f32⟩
  | 5 => ⟨S50000, .f32⟩
  | 6 => ⟨S50000, .f32⟩
  | 7 => ⟨S50000x1, .f32⟩
  | 8 => ⟨S50000x128, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S_, .f32⟩
  | 19 => ⟨S50000x128, .f32⟩
  | 20 => ⟨S800000x1, .i32⟩
  | 21 => ⟨S50000x128, .f32⟩
  | 22 => ⟨S50000x1, .f32⟩
  | 23 => ⟨S1x128, .f32⟩
  | 24 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x1, .f32⟩
  | .local _ .vmem, ⟨17, _⟩ => ⟨S2000x1, .f32⟩
  | .local _ .vmem, ⟨18, _⟩ => ⟨S256x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x1, .f32⟩
  | .local _ .vmem, ⟨31, _⟩ => ⟨S2000x1, .f32⟩
  | .local _ .vmem, ⟨32, _⟩ => ⟨S256x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v14 : Ref sig .tc := ⟨.hbm, 35, rfl⟩
abbrev main_cst_7 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_8 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_10 : Ref sig .tc := ⟨.hbm, 57, rfl⟩
abbrev main_v32 : Ref sig .tc := ⟨.hbm, 58, rfl⟩
abbrev main_cst_11 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_12 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_13 : Ref sig .tc := ⟨.hbm, 67, rfl⟩
abbrev main_v39 : Ref sig .tc := ⟨.hbm, 68, rfl⟩
abbrev main_v40 : Ref sig .tc := ⟨.hbm, 69, rfl⟩
abbrev main_cst_14 : Ref sig .tc := ⟨.hbm, 70, rfl⟩
abbrev main_call2_v0 : Ref sig .tc := ⟨.hbm, 71, rfl⟩
abbrev main_call2_v1 : Ref sig .tc := ⟨.hbm, 72, rfl⟩
abbrev main_v41 : Ref sig .tc := ⟨.hbm, 73, rfl⟩
abbrev main_cst_15 : Ref sig .tc := ⟨.hbm, 74, rfl⟩
abbrev main_v42 : Ref sig .tc := ⟨.hbm, 75, rfl⟩
abbrev main_v43 : Ref sig .tc := ⟨.hbm, 76, rfl⟩
abbrev main_cst_16 : Ref sig .tc := ⟨.hbm, 77, rfl⟩
abbrev main_v44 : Ref sig .tc := ⟨.hbm, 78, rfl⟩
abbrev main_v45 : Ref sig .tc := ⟨.hbm, 79, rfl⟩
abbrev main_cst_17 : Ref sig .tc := ⟨.hbm, 80, rfl⟩
abbrev main_call3_v0 : Ref sig .tc := ⟨.hbm, 81, rfl⟩
abbrev main_call3_v1 : Ref sig .tc := ⟨.hbm, 82, rfl⟩
abbrev main_v46 : Ref sig .tc := ⟨.hbm, 83, rfl⟩
abbrev main_cst_18 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_19 : Ref sig .tc := ⟨.hbm, 89, rfl⟩
abbrev main_v51 : Ref sig .tc := ⟨.hbm, 90, rfl⟩
abbrev main_v52 : Ref sig .tc := ⟨.hbm, 91, rfl⟩
abbrev main_c_20 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_21 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_22 : Ref sig .tc := ⟨.hbm, 105, rfl⟩
abbrev main_v64 : Ref sig .tc := ⟨.hbm, 106, rfl⟩
abbrev main_cst_23 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_24 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_25 : Ref sig .tc := ⟨.hbm, 115, rfl⟩
abbrev main_v71 : Ref sig .tc := ⟨.hbm, 116, rfl⟩
abbrev main_v72 : Ref sig .tc := ⟨.hbm, 117, rfl⟩
abbrev main_cst_26 : Ref sig .tc := ⟨.hbm, 118, rfl⟩
abbrev main_call4_v0 : Ref sig .tc := ⟨.hbm, 119, rfl⟩
abbrev main_call4_v1 : Ref sig .tc := ⟨.hbm, 120, rfl⟩
abbrev main_v73 : Ref sig .tc := ⟨.hbm, 121, rfl⟩
abbrev main_cst_27 : Ref sig .tc := ⟨.hbm, 122, rfl⟩
abbrev main_v74 : Ref sig .tc := ⟨.hbm, 123, rfl⟩
abbrev main_v75 : Ref sig .tc := ⟨.hbm, 124, rfl⟩
abbrev main_cst_28 : Ref sig .tc := ⟨.hbm, 125, rfl⟩
abbrev main_v76 : Ref sig .tc := ⟨.hbm, 126, rfl⟩
abbrev main_v77 : Ref sig .tc := ⟨.hbm, 127, rfl⟩
abbrev main_cst_29 : Ref sig .tc := ⟨.hbm, 128, rfl⟩
abbrev main_call5_v0 : Ref sig .tc := ⟨.hbm, 129, rfl⟩
abbrev main_call5_v1 : Ref sig .tc := ⟨.hbm, 130, rfl⟩
abbrev main_v78 : Ref sig .tc := ⟨.hbm, 131, rfl⟩
abbrev main_cst_30 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_31 : Ref sig .tc := ⟨.hbm, 137, rfl⟩
abbrev main_v83 : Ref sig .tc := ⟨.hbm, 138, rfl⟩
abbrev main_v84 : Ref sig .tc := ⟨.hbm, 139, rfl⟩
abbrev main_c_32 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_33 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v60) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v63) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v92) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 174
  | .vmem => 0
  | .smem => 0
  | _ => 0

abbrev hbmTy0_0 (i : Nat) : BufTy := match i % 128 with
  | 0 => ⟨S50000x256, .f32⟩
  | 1 => ⟨S800000, .i32⟩
  | 2 => ⟨S800000, .i32⟩
  | 3 => ⟨S256x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .i1⟩
  | 32 => ⟨S_, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x256, .f32⟩
  | 41 => ⟨S50000x256, .f32⟩
  | 42 => ⟨S50000x256, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x256, .f32⟩
  | 52 => ⟨S_, .f32⟩
  | 53 => ⟨S50000x256, .f32⟩
  | 54 => ⟨S800000x1, .i32⟩
  | 55 => ⟨S50000x256, .f32⟩
  | 56 => ⟨S50000x1, .f32⟩
  | 57 => ⟨S50000x256, .f32⟩
  | 58 => ⟨S50000x256, .f32⟩
  | 59 => ⟨S1x256, .f32⟩
  | 60 => ⟨S50000x256, .f32⟩
  | 61 => ⟨S50000x256, .f32⟩
  | 62 => ⟨S_, .f32⟩
  | 63 => ⟨S50000x256, .f32⟩
  | 64 => ⟨S50000x256, .f32⟩
  | 65 => ⟨S_, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .i1⟩
  | 78 => ⟨S_, .f32⟩
  | 79 => ⟨S_, .f32⟩
  | 80 => ⟨S50000, .f32⟩
  | 81 => ⟨S50000, .f32⟩
  | 82 => ⟨S_, .f32⟩
  | 83 => ⟨S50000, .f32⟩
  | 84 => ⟨S50000, .f32⟩
  | 85 => ⟨S_, .f32⟩
  | 86 => ⟨S50000, .f32⟩
  | 87 => ⟨S50000, .i1⟩
  | 88 => ⟨S_, .f32⟩
  | 89 => ⟨S_, .f32⟩
  | 90 => ⟨S50000, .f32⟩
  | 91 => ⟨S50000, .f32⟩
  | 92 => ⟨S_, .f32⟩
  | 93 => ⟨S50000, .f32⟩
  | 94 => ⟨S50000, .f32⟩
  | 95 => ⟨S50000x1, .f32⟩
  | 96 => ⟨S50000x256, .f32⟩
  | 97 => ⟨S50000x256, .f32⟩
  | 98 => ⟨S50000x256, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x256, .f32⟩
  | 108 => ⟨S_, .f32⟩
  | 109 => ⟨S50000x256, .f32⟩
  | 110 => ⟨S800000x1, .i32⟩
  | 111 => ⟨S50000x256, .f32⟩
  | 112 => ⟨S50000x1, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S50000x256, .f32⟩
  | 120 => ⟨S50000x256, .f32⟩
  | 121 => ⟨S_, .f32⟩
  | 122 => ⟨S800000, .f32⟩
  | 123 => ⟨S_, .f32⟩
  | 124 => ⟨S50000, .f32⟩
  | 125 => ⟨S800000x1, .i32⟩
  | 126 => ⟨S50000, .f32⟩
  | 127 => ⟨S_, .f32⟩
  | _ => ⟨S50000x256, .f32⟩

abbrev hbmTy0_1 (i : Nat) : BufTy := match i % 128 with
  | 0 => ⟨S50000, .f32⟩
  | 1 => ⟨S800000x1, .i32⟩
  | 2 => ⟨S50000, .f32⟩
  | 3 => ⟨S_, .f32⟩
  | 4 => ⟨S50000, .f32⟩
  | 5 => ⟨S50000, .i1⟩
  | 6 => ⟨S_, .f32⟩
  | 7 => ⟨S_, .f32⟩
  | 8 => ⟨S50000, .f32⟩
  | 9 => ⟨S50000, .f32⟩
  | 10 => ⟨S_, .f32⟩
  | 11 => ⟨S50000, .f32⟩
  | 12 => ⟨S50000, .f32⟩
  | 13 => ⟨S_, .f32⟩
  | 14 => ⟨S50000, .f32⟩
  | 15 => ⟨S50000, .i1⟩
  | 16 => ⟨S_, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .f32⟩
  | 23 => ⟨S50000x1, .f32⟩
  | 24 => ⟨S50000x256, .f32⟩
  | 25 => ⟨S50000x256, .f32⟩
  | 26 => ⟨S50000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000x1, .f32⟩
  | 41 => ⟨S50000x128, .f32⟩
  | 42 => ⟨S50000x128, .f32⟩
  | 43 => ⟨S1x128, .f32⟩
  | 44 => ⟨S50000x128, .f32⟩
  | 45 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v14 : Ref sig .tc := ⟨.hbm, 35, rfl⟩
abbrev main_cst_7 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_8 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_9 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_cst : Ref sig .tc := ⟨.hbm, 62, rfl⟩
abbrev main_call2_v0 : Ref sig .tc := ⟨.hbm, 63, rfl⟩
abbrev main_v37 : Ref sig .tc := ⟨.hbm, 64, rfl⟩
abbrev main_cst_10 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_13 : Ref sig .tc := ⟨.hbm, 75, rfl⟩
abbrev main_v45 : Ref sig .tc := ⟨.hbm, 76, rfl⟩
abbrev main_v46 : Ref sig .tc := ⟨.hbm, 77, rfl⟩
abbrev main_cst_14 : Ref sig .tc := ⟨.hbm, 78, rfl⟩
abbrev main_call3_v0 : Ref sig .tc := ⟨.hbm, 79, rfl⟩
abbrev main_call3_v1 : Ref sig .tc := ⟨.hbm, 80, rfl⟩
abbrev main_v47 : Ref sig .tc := ⟨.hbm, 81, rfl⟩
abbrev main_cst_15 : Ref sig .tc := ⟨.hbm, 82, rfl⟩
abbrev main_v48 : Ref sig .tc := ⟨.hbm, 83, rfl⟩
abbrev main_v49 : Ref sig .tc := ⟨.hbm, 84, rfl⟩
abbrev main_cst_16 : Ref sig .tc := ⟨.hbm, 85, rfl⟩
abbrev main_v50 : Ref sig .tc := ⟨.hbm, 86, rfl⟩
abbrev main_v51 : Ref sig .tc := ⟨.hbm, 87, rfl⟩
abbrev main_cst_17 : Ref sig .tc := ⟨.hbm, 88, rfl⟩
abbrev main_call4_v0 : Ref sig .tc := ⟨.hbm, 89, rfl⟩
abbrev main_call4_v1 : Ref sig .tc := ⟨.hbm, 90, rfl⟩
abbrev main_v52 : Ref sig .tc := ⟨.hbm, 91, rfl⟩
abbrev main_cst_18 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_19 : Ref sig .tc := ⟨.hbm, 99, rfl⟩
abbrev main_v59 : Ref sig .tc := ⟨.hbm, 100, rfl⟩
abbrev main_v60 : Ref sig .tc := ⟨.hbm, 101, rfl⟩
abbrev main_c_20 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_21 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_call5_cst : Ref sig .tc := ⟨.hbm, 118, rfl⟩
abbrev main_call5_v0 : Ref sig .tc := ⟨.hbm, 119, rfl⟩
abbrev main_v75 : Ref sig .tc := ⟨.hbm, 120, rfl⟩
abbrev main_cst_22 : Ref sig .tc := ⟨.hbm, 121, rfl⟩
abbrev main_v76 : Ref sig .tc := ⟨.hbm, 122, rfl⟩
abbrev main_cst_23 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_24 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_25 : Ref sig .tc := ⟨.hbm, 131, rfl⟩
abbrev main_v83 : Ref sig .tc := ⟨.hbm, 132, rfl⟩
abbrev main_v84 : Ref sig .tc := ⟨.hbm, 133, rfl⟩
abbrev main_cst_26 : Ref sig .tc := ⟨.hbm, 134, rfl⟩
abbrev main_call6_v0 : Ref sig .tc := ⟨.hbm, 135, rfl⟩
abbrev main_call6_v1 : Ref sig .tc := ⟨.hbm, 136, rfl⟩
abbrev main_v85 : Ref sig .tc := ⟨.hbm, 137, rfl⟩
abbrev main_cst_27 : Ref sig .tc := ⟨.hbm, 138, rfl⟩
abbrev main_v86 : Ref sig .tc := ⟨.hbm, 139, rfl⟩
abbrev main_v87 : Ref sig .tc := ⟨.hbm, 140, rfl⟩
abbrev main_cst_28 : Ref sig .tc := ⟨.hbm, 141, rfl⟩
abbrev main_v88 : Ref sig .tc := ⟨.hbm, 142, rfl⟩
abbrev main_v89 : Ref sig .tc := ⟨.hbm, 143, rfl⟩
abbrev main_cst_29 : Ref sig .tc := ⟨.hbm, 144, rfl⟩
abbrev main_call7_v0 : Ref sig .tc := ⟨.hbm, 145, rfl⟩
abbrev main_call7_v1 : Ref sig .tc := ⟨.hbm, 146, rfl⟩
abbrev main_v90 : Ref sig .tc := ⟨.hbm, 147, rfl⟩
abbrev main_cst_30 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_c_31 : Ref sig .tc := ⟨.hbm, 155, rfl⟩
abbrev main_v97 : Ref sig .tc := ⟨.hbm, 156, rfl⟩
abbrev main_v98 : Ref sig .tc := ⟨.hbm, 157, rfl⟩
abbrev main_c_32 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_33 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
import proofs.«171964_j2963527434974_1_alg».proof.Proof.Gen.KernelIdeal.Frame

/-!
The idealized kernel program's run with its three results NAMED. The program is six Pallas calls among stretches of host
operations; the generated frame follows the contents of every buffer through that chain, boundary by boundary, and ends
at the contents `W24` after the last call. Here the same run is stated with a stronger conclusion: besides the nine
argument arrays ending as they started, each of the three result arrays ends at what `W24` holds for it. What those
contents ARE, as functions of the arguments, is read off the chain elsewhere.
-/

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the three result arrays end at the last
    boundary's contents and the nine arguments as launched. The segments, their proof data and the thread states are
    the generated frame's; only the conclusion read off the last thread state is larger. -/
theorem run_named : θ_run defs (onTc (τ := τ) (main (F := F))) ⟨m, fun _ => 0, ρ⟩ (fun r => ∀ c : Dev nD,
      r.2.mem ((c.tc : Thread nD τ).loc main_v31) = W24 m ρ c (Proc.devRef .tc main_v31)
      ∧ r.2.mem ((c.tc : Thread nD τ).loc main_v63) = W24 m ρ c (Proc.devRef .tc main_v63)
      ∧ r.2.mem ((c.tc : Thread nD τ).loc main_v95) = W24 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v31 (by decide)),
       h c _ (mem_uc main_v63 (by decide)),
       h c _ (mem_uc main_v95 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c)⟩)

end Cert.KernelIdeal.Named

end
-- ==== Proof.TileMM0.lean ====
import proofs.«171964_j2963527434974_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
One tile of the scaled feature transform. A tile holds 2000 rows of the node features; every row is multiplied by its
node's out-degree scale and then by the 256 × 256 weight matrix. Read at row `p`, column `q`, the tile's result
is `∑ k, (x p k · s p) · w k q` over the extended reals: the change of float format before the product is the identity
there, and the product into a zero accumulator is the plain sum.
-/

noncomputable section

namespace Cert.KernelIdeal.TileMM0

open Idealize.ShloMosaic Idealize.ShloMosaic.ValueIdx Cert.KernelIdeal Cert.KernelIdeal.Gen

/-- The left operand's row coordinate is the output's row. -/
theorem lhs_0 (i : S2000x256.Idx) (r : dot_S2000x256_S256x256_S2000x256_1_0_0_1_n_n.contr.Idx) : (dot_S2000x256_S256x256_S2000x256_1_0_0_1_n_n.lhsIdx i r 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column coordinate is the contraction index. -/
theorem lhs_1 (i : S2000x256.Idx) (r : dot_S2000x256_S256x256_S2000x256_1_0_0_1_n_n.contr.Idx) : (dot_S2000x256_S256x256_S2000x256_1_0_0_1_n_n.lhsIdx i r 1).val = (r ⟨0, by decide⟩).val :=
  dot_S2000x256_S256x256_S2000x256_1_0_0_1_n_n.lhsIdx_val_of_single rfl i r
/-- The right operand's row coordinate is the contraction index. -/
theorem rhs_0 (i : S2000x256.Idx) (r : dot_S2000x256_S256x256_S2000x256_1_0_0_1_n_n.contr.Idx) : (dot_S2000x256_S256x256_S2000x256_1_0_0_1_n_n.rhsIdx i r 0).val = (r ⟨0, by decide⟩).val :=
  dot_S2000x256_S256x256_S2000x256_1_0_0_1_n_n.rhsIdx_val_of_single rfl i r
/-- The right operand's column coordinate is the output's column. -/
theorem rhs_1 (i : S2000x256.Idx) (r : dot_S2000x256_S256x256_S2000x256_1_0_0_1_n_n.contr.Idx) : (dot_S2000x256_S256x256_S2000x256_1_0_0_1_n_n.rhsIdx i r 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The contraction's left operand index at output `(p, q)`, term `k`, is `(p, k)`. -/
theorem lhs_ix (p : Fin 2000) (q : Fin 256) (k : Fin 256) :
    dot_S2000x256_S256x256_S2000x256_1_0_0_1_n_n.lhsIdx (ix2 p q) ((contrEquiv1 dot_S2000x256_S256x256_S2000x256_1_0_0_1_n_n 256 rfl rfl).symm k) = ix2 p k := by
  have hk := contrEquiv1_symm_val dot_S2000x256_S256x256_S2000x256_1_0_0_1_n_n 256 rfl rfl k
  exact funext fun a => Fin.ext (by
    match a with
    | ⟨0, _⟩ => exact lhs_0 _ _
    | ⟨1, _⟩ => exact (lhs_1 _ _).trans hk)

/-- The contraction's right operand index at output `(p, q)`, term `k`, is `(k, q)`. -/
theorem rhs_ix (p : Fin 2000) (q : Fin 256) (k : Fin 256) :
    dot_S2000x256_S256x256_S2000x256_1_0_0_1_n_n.rhsIdx (ix2 p q) ((contrEquiv1 dot_S2000x256_S256x256_S2000x256_1_0_0_1_n_n 256 rfl rfl).symm k) = ix2 k q := by
  have hk := contrEquiv1_symm_val dot_S2000x256_S256x256_S2000x256_1_0_0_1_n_n 256 rfl rfl k
  exact funext fun a => Fin.ext (by
    match a with
    | ⟨0, _⟩ => exact (rhs_0 _ _).trans hk
    | ⟨1, _⟩ => exact rhs_1 _ _)

/-- A column of per-row scales spread along the rows: entry `(p, k)` is row `p`'s scale. -/
theorem scale_col (x1 : Vec Ideal S2000x1 .f32) (p : Fin 2000) (k : Fin 256) :
    broadcastTo S2000x256 (shapeCast S2000x1 x1 shapeCasts_S2000x1_S2000x1) broadcasts_S2000x1_S2000x256 (ix2 p k) = x1 (ix2 p 0) := by
  rw [shapeCast_self]
  exact broadcastTo_apply x1 _ (ix2 p k) (ix2 p 0) (fun a => by
    match a with
    | ⟨0, _⟩ => rfl
    | ⟨1, _⟩ => rfl)

/-- THE TILE at `(p, q)`: the sum over the 256 features of (feature · row scale) · weight. -/
theorem tile_apply (x0 : Vec Ideal S2000x256 .f32) (x1 : Vec Ideal S2000x1 .f32) (x2 : Vec Ideal S256x256 .f32) (p : Fin 2000) (q : Fin 256) :
    k0_pay1 x0 x1 x2 (ix2 p q) = ∑ k : Fin 256, (x0 (ix2 p k) * x1 (ix2 p 0)) * x2 (ix2 k q) := by
  unfold k0_pay1
  refine (Ideal.matmul_constant_zero_apply dot_S2000x256_S256x256_S2000x256_1_0_0_1_n_n none _ _ (ix2 p q)).trans ?_
  rw [← Equiv.sum_comp (contrEquiv1 dot_S2000x256_S256x256_S2000x256_1_0_0_1_n_n 256 rfl rfl).symm]
  refine Finset.sum_congr rfl fun k _ => ?_
  rw [lhs_ix, rhs_ix]
  show (x0 (ix2 p k) * _) * x2 (ix2 k q) = _
  rw [scale_col]

end Cert.KernelIdeal.TileMM0

end
-- ==== Proof.Spec.lean ====
import Idealize.ShloMosaic.Lib.ValueIdx
import Idealize.ShloMosaic.PureOps.Ideal

/-!
The two dense steps of one graph-convolution layer, as whole-array functions over the extended reals.

* `mm`: the scaled feature transform. Row `r` of the node features is multiplied by the node's out-degree scale `s r` and
  by the weight matrix: entry `(r, q)` is `∑ k, (x r k · s r) · w k q`.
* `cbRelu` / `cbLin`: what follows the neighbour sum. Entry `(r, q)` is `m r q · s r + b q`, cut off below at zero in
  the layers that have an activation.

Both are stated over literal extents (50000 nodes; 256 → 256 and 256 → 128 features).
-/

noncomputable section

namespace Cert.Gcn

open Idealize.ShloMosaic Idealize.ShloMosaic.ValueIdx

/-- The scaled feature transform, 256 features to 256. -/
def mm256 (x : (⟨2, ![50000, 256]⟩ : Shape).Idx → EReal) (s : (⟨2, ![50000, 1]⟩ : Shape).Idx → EReal)
    (w : (⟨2, ![256, 256]⟩ : Shape).Idx → EReal) : (⟨2, ![50000, 256]⟩ : Shape).Idx → EReal :=
  fun i => ∑ k : Fin 256, (x (ix2 (i 0) k) * s (ix2 (i 0) 0)) * w (ix2 k (i 1))

/-- The scaled feature transform, 256 features to 128. -/
def mm128 (x : (⟨2, ![50000, 256]⟩ : Shape).Idx → EReal) (s : (⟨2, ![50000, 1]⟩ : Shape).Idx → EReal)
    (w : (⟨2, ![256, 128]⟩ : Shape).Idx → EReal) : (⟨2, ![50000, 128]⟩ : Shape).Idx → EReal :=
  fun i => ∑ k : Fin 256, (x (ix2 (i 0) k) * s (ix2 (i 0) 0)) * w (ix2 k (i 1))

/-- Scale by the in-degree factor, add the bias, cut off at zero (256 features). -/
def cbRelu256 (m : (⟨2, ![50000, 256]⟩ : Shape).Idx → EReal) (s : (⟨2, ![50000, 1]⟩ : Shape).Idx → EReal)
    (b : (⟨2, ![1, 256]⟩ : Shape).Idx → EReal) : (⟨2, ![50000, 256]⟩ : Shape).Idx → EReal :=
  fun i => max (m (ix2 (i 0) (i 1)) * s (ix2 (i 0) 0) + b (ix2 0 (i 1))) (Ideal.ofBits .f32 0x00000000#32)

/-- Scale by the in-degree factor and add the bias (128 features, the last layer: no activation). -/
def cbLin128 (m : (⟨2, ![50000, 128]⟩ : Shape).Idx → EReal) (s : (⟨2, ![50000, 1]⟩ : Shape).Idx → EReal)
    (b : (⟨2, ![1, 128]⟩ : Shape).Idx → EReal) : (⟨2, ![50000, 128]⟩ : Shape).Idx → EReal :=
  fun i => m (ix2 (i 0) (i 1)) * s (ix2 (i 0) 0) + b (ix2 0 (i 1))

/-- The scaled feature transform at an index, spelt out. -/
theorem mm256_apply (x : (⟨2, ![50000, 256]⟩ : Shape).Idx → EReal) (s : (⟨2, ![50000, 1]⟩ : Shape).Idx → EReal)
    (w : (⟨2, ![256, 256]⟩ : Shape).Idx → EReal) (i : (⟨2, ![50000, 256]⟩ : Shape).Idx) :
    mm256 x s w i = ∑ k : Fin 256, (x (ix2 (i 0) k) * s (ix2 (i 0) 0)) * w (ix2 k (i 1)) := rfl

theorem mm128_apply (x : (⟨2, ![50000, 256]⟩ : Shape).Idx → EReal) (s : (⟨2, ![50000, 1]⟩ : Shape).Idx → EReal)
    (w : (⟨2, ![256, 128]⟩ : Shape).Idx → EReal) (i : (⟨2, ![50000, 128]⟩ : Shape).Idx) :
    mm128 x s w i = ∑ k : Fin 256, (x (ix2 (i 0) k) * s (ix2 (i 0) 0)) * w (ix2 k (i 1)) := rfl

theorem cbRelu256_apply (m : (⟨2, ![50000, 256]⟩ : Shape).Idx → EReal) (s : (⟨2, ![50000, 1]⟩ : Shape).Idx → EReal)
    (b : (⟨2, ![1, 256]⟩ : Shape).Idx → EReal) (i : (⟨2, ![50000, 256]⟩ : Shape).Idx) :
    cbRelu256 m s b i = max (m (ix2 (i 0) (i 1)) * s (ix2 (i 0) 0) + b (ix2 0 (i 1))) (Ideal.ofBits .f32 0x00000000#32) := rfl

theorem cbLin128_apply (m : (⟨2, ![50000, 128]⟩ : Shape).Idx → EReal) (s : (⟨2, ![50000, 1]⟩ : Shape).Idx → EReal)
    (b : (⟨2, ![1, 128]⟩ : Shape).Idx → EReal) (i : (⟨2, ![50000, 128]⟩ : Shape).Idx) :
    cbLin128 m s b i = m (ix2 (i 0) (i 1)) * s (ix2 (i 0) 0) + b (ix2 0 (i 1)) := rfl

end Cert.Gcn

end
-- ==== Proof.Region0.lean ====
import proofs.«171964_j2963527434974_1_alg».proof.Proof.Gen.KernelIdeal.Frame
import proofs.«171964_j2963527434974_1_alg».proof.Proof.TileMM0
import proofs.«171964_j2963527434974_1_alg».proof.Proof.Spec
import Idealize.ShloMosaic.Lib.Pipeline.Value

/-!
Pallas call 0 (a scaled feature transform), from its tiles to the whole array. The call walks the 50000 rows in 25 tiles
of 2000; tile `t` reads rows `2000·t … 2000·t + 1999` of the features and of the scale column, the whole weight
matrix, and writes the same rows of the result. Every row lies in exactly one tile, so after the call the result array
holds the scaled feature transform of the arrays the call found, entry by entry.
-/

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Where tile `t` sits: the row-tiled windows at block row `t`, the weight matrix always at its one block. -/
theorem tile_pos : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 25 :=
  (by decide +kernel : ∀ t : Fin grid0.N, _)

/-- WHAT TILE `t` WRITES BACK is its rows of the scaled feature transform of the arrays as the call finds them. -/
theorem tile_is_rows (c : Dev nD) (t : Fin cfg0.N) :
    (dat0 V c).flushed 3 t = ((cfg0.win 3).blk t).view.read (Elt Ideal) (mm256 (V c main_arg0) (V c main_v17) (V c main_arg3)) := by
  show (cfg0.win 3).cut (grid0.coords t) ((dat0 V c).after 3 t) = _
  rw [after0_3]
  unfold out0_3
  rw [View.canon_unit_zero hz]
  simp only [View.ld_unit_zero (S := S2000x256) hz, View.ld_unit_zero (S := S2000x1) hz, View.ld_unit_zero (S := S256x256) hz]
  obtain ⟨e00, e01, e10, e11, e20, e21, e30, e31, ht⟩ := tile_pos t
  refine funext fun (j : S2000x256.Idx) => ?_
  obtain ⟨p, q, rfl⟩ : ∃ (p : Fin 2000) (q : Fin 256), j = ix2 p q := ⟨j 0, j 1, eq_ix2 j⟩
  refine (TileMM0.tile_apply (iblk0 V c 0 t) (iblk0 V c 1 t) (iblk0 V c 2 t) p q).trans ?_
  refine Eq.trans ?_ (mm256_apply (V c main_arg0) (V c main_v17) (V c main_arg3) (((cfg0.win 3).blk t).view.emb (ix2 p q))).symm
  refine Finset.sum_congr rfl fun k _ => ?_
  have h0 : iblk0 V c 0 t (ix2 p k) = V c main_arg0 (ix2 ((((cfg0.win 3).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 256 + 1 * k.val = k.val; omega
  have h1 : iblk0 V c 1 t (ix2 p 0) = V c main_v17 (ix2 ((((cfg0.win 3).blk t).view.emb (ix2 p q)) 0) 0) := by
    show V c main_v17 (((cfg0.win 1).blk t).view.emb (ix2 p 0)) = _
    refine congrArg (V c main_v17) (funext fun a => Fin.ext ?_)
    match a with
    | ⟨0, _⟩ => show win0_1.index t (0 : Fin 2) * 2000 + 1 * p.val = win0_3.index t (0 : Fin 2) * 2000 + 1 * p.val; omega
    | ⟨1, _⟩ => show win0_1.index t (1 : Fin 2) * 1 + 1 * 0 = 0; omega
  have h2 : iblk0 V c 2 t (ix2 k q) = V c main_arg3 (ix2 k ((((cfg0.win 3).blk t).view.emb (ix2 p q)) 1)) := by
    show V c main_arg3 (((cfg0.win 2).blk t).view.emb (ix2 k q)) = _
    refine congrArg (V c main_arg3) (funext fun a => Fin.ext ?_)
    match a with
    | ⟨0, _⟩ => show win0_2.index t (0 : Fin 2) * 256 + 1 * k.val = k.val; omega
    | ⟨1, _⟩ => show win0_2.index t (1 : Fin 2) * 256 + 1 * q.val = win0_3.index t (1 : Fin 2) * 256 + 1 * q.val; omega
  rw [h0, h1, h2]

/-- An index of the result array is in tile `t`'s block iff each coordinate is in the block's range on its axis. -/
theorem mem_tile (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v18).slice (win0_3.rect t)).set ↔ _
  rw [View.set_slice_whole, Rect.mem_set_unit]
  exact Iff.rfl

/-- Every block row is some tile's. -/
theorem tile_onto : ∀ (b : Fin 25), ∃ t : Fin cfg0.N, win0_3.index t = ![b.val, 0] :=
  (by decide +kernel : ∀ (b : Fin 25), ∃ t : Fin grid0.N, win0_3.index t = ![b.val, 0])

/-- Every row of the result lies in a tile: row `r` in tile `r / 2000`. -/
theorem rows_covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := tile_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_tile]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- THE RESULT ARRAY after the call: the scaled feature transform of the arrays the call found. -/
theorem result (c : Dev nD) :
    (dat0 V c).arrAt 3 cfg0.N = mm256 (V c main_arg0) (V c main_v17) (V c main_arg3) :=
  (dat0 V c).arrAt_eq_of_cover 3 (mm256 (V c main_arg0) (V c main_v17) (V c main_arg3)) (fun t _ => tile_is_rows V c t) rows_covered

end Cert.KernelIdeal.Region0

end
-- ==== Proof.TileCB1.lean ====
import proofs.«171964_j2963527434974_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
One tile of the step that follows the neighbour sum. A tile holds 2000 rows of summed messages; every row is multiplied
by its node's in-degree scale, the bias row is added, and the result is cut off below at zero. Read at row `p`, column `q`, the
tile's result is `max (m p q · s p + b q) 0` over the extended reals.
-/

noncomputable section

namespace Cert.KernelIdeal.TileCB1

open Idealize.ShloMosaic Idealize.ShloMosaic.ValueIdx Cert.KernelIdeal Cert.KernelIdeal.Gen

/-- A column of per-row scales spread along the rows: entry `(p, q)` is row `p`'s scale. -/
theorem scale_col (x1 : Vec Ideal S2000x1 .f32) (p : Fin 2000) (q : Fin 256) :
    broadcastTo S2000x256 (shapeCast S2000x1 x1 shapeCasts_S2000x1_S2000x1) broadcasts_S2000x1_S2000x256 (ix2 p q) = x1 (ix2 p 0) := by
  rw [shapeCast_self]
  exact broadcastTo_apply x1 _ (ix2 p q) (ix2 p 0) (fun a => by
    match a with
    | ⟨0, _⟩ => rfl
    | ⟨1, _⟩ => rfl)

/-- The bias row spread down the rows: entry `(p, q)` is the bias of column `q`. -/
theorem bias_row (x2 : Vec Ideal S1x256 .f32) (p : Fin 2000) (q : Fin 256) :
    broadcastTo S2000x256 (shapeCast S1x256 x2 shapeCasts_S1x256_S1x256) broadcasts_S1x256_S2000x256 (ix2 p q) = x2 (ix2 0 q) := by
  rw [shapeCast_self]
  exact broadcastTo_apply x2 _ (ix2 p q) (ix2 0 q) (fun a => by
    match a with
    | ⟨0, _⟩ => rfl
    | ⟨1, _⟩ => rfl)

/-- THE TILE at `(p, q)`. -/
theorem tile_apply (x0 : Vec Ideal S2000x256 .f32) (x1 : Vec Ideal S2000x1 .f32) (x2 : Vec Ideal S1x256 .f32) (p : Fin 2000) (q : Fin 256) :
    k1_pay1 x0 x1 x2 (ix2 p q) = max (x0 (ix2 p q) * x1 (ix2 p 0) + x2 (ix2 0 q)) (Ideal.ofBits .f32 0x00000000#32) := by
  unfold k1_pay1
  show max ((shapeCast S2000x256 x0 shapeCasts_S2000x256_S2000x256) (ix2 p q)
      * (broadcastTo S2000x256 (shapeCast S2000x1 x1 shapeCasts_S2000x1_S2000x1) broadcasts_S2000x1_S2000x256) (ix2 p q)
      + (broadcastTo S2000x256 (shapeCast S1x256 x2 shapeCasts_S1x256_S1x256) broadcasts_S1x256_S2000x256) (ix2 p q)) _ = _
  rw [scale_col, bias_row, shapeCast_self]
  rfl

end Cert.KernelIdeal.TileCB1

end
-- ==== Proof.Region1.lean ====
import proofs.«171964_j2963527434974_1_alg».proof.Proof.Gen.KernelIdeal.Frame
import proofs.«171964_j2963527434974_1_alg».proof.Proof.TileCB1
import proofs.«171964_j2963527434974_1_alg».proof.Proof.Spec
import Idealize.ShloMosaic.Lib.Pipeline.Value

/-!
Pallas call 1 (the step after the neighbour sum), from its tiles to the whole array. The call walks the 50000 rows in 25
tiles of 2000; tile `t` reads rows `2000·t … 2000·t + 1999` of the summed messages and of the scale column, the whole
bias row, and writes the same rows of the result. Every row lies in exactly one tile, so after the call the result array
holds, entry by entry, the scaled and shifted sum of the arrays the call found.
-/

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Where tile `t` sits: the row-tiled windows at block row `t`, the bias row always at its one block. -/
theorem tile_pos : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 25 :=
  (by decide +kernel : ∀ t : Fin grid1.N, _)

/-- WHAT TILE `t` WRITES BACK is its rows of the scaled and shifted sum of the arrays as the call finds them. -/
theorem tile_is_rows (c : Dev nD) (t : Fin cfg1.N) :
    (dat1 V c).flushed 3 t = ((cfg1.win 3).blk t).view.read (Elt Ideal) (cbRelu256 (V c main_v28) (V c main_v29) (V c main_v30)) := by
  show (cfg1.win 3).cut (grid1.coords t) ((dat1 V c).after 3 t) = _
  rw [after1_3]
  unfold out1_3
  rw [View.canon_unit_zero hz]
  simp only [View.ld_unit_zero (S := S2000x256) hz, View.ld_unit_zero (S := S2000x1) hz, View.ld_unit_zero (S := S1x256) hz]
  obtain ⟨e00, e01, e10, e11, e20, e21, e30, e31, ht⟩ := tile_pos t
  refine funext fun (j : S2000x256.Idx) => ?_
  obtain ⟨p, q, rfl⟩ : ∃ (p : Fin 2000) (q : Fin 256), j = ix2 p q := ⟨j 0, j 1, eq_ix2 j⟩
  refine (TileCB1.tile_apply (iblk1 V c 0 t) (iblk1 V c 1 t) (iblk1 V c 2 t) p q).trans ?_
  refine Eq.trans ?_ (cbRelu256_apply (V c main_v28) (V c main_v29) (V c main_v30) (((cfg1.win 3).blk t).view.emb (ix2 p q))).symm
  have h0 : iblk1 V c 0 t (ix2 p q) = V c main_v28 (ix2 ((((cfg1.win 3).blk t).view.emb (ix2 p q)) 0) ((((cfg1.win 3).blk t).view.emb (ix2 p q)) 1)) := by
    show V c main_v28 (((cfg1.win 0).blk t).view.emb (ix2 p q)) = _
    refine congrArg (V c main_v28) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 256 + 1 * q.val = win1_3.index t (1 : Fin 2) * 256 + 1 * q.val; omega
  have h1 : iblk1 V c 1 t (ix2 p 0) = V c main_v29 (ix2 ((((cfg1.win 3).blk t).view.emb (ix2 p q)) 0) 0) := by
    show V c main_v29 (((cfg1.win 1).blk t).view.emb (ix2 p 0)) = _
    refine congrArg (V c main_v29) (funext fun a => Fin.ext ?_)
    match a with
    | ⟨0, _⟩ => show win1_1.index t (0 : Fin 2) * 2000 + 1 * p.val = win1_3.index t (0 : Fin 2) * 2000 + 1 * p.val; omega
    | ⟨1, _⟩ => show win1_1.index t (1 : Fin 2) * 1 + 1 * 0 = 0; omega
  have h2 : iblk1 V c 2 t (ix2 0 q) = V c main_v30 (ix2 0 ((((cfg1.win 3).blk t).view.emb (ix2 p q)) 1)) := by
    show V c main_v30 (((cfg1.win 2).blk t).view.emb (ix2 0 q)) = _
    refine congrArg (V c main_v30) (funext fun a => Fin.ext ?_)
    match a with
    | ⟨0, _⟩ => show win1_2.index t (0 : Fin 2) * 1 + 1 * 0 = 0; omega
    | ⟨1, _⟩ => show win1_2.index t (1 : Fin 2) * 256 + 1 * q.val = win1_3.index t (1 : Fin 2) * 256 + 1 * q.val; omega
  rw [h0, h1, h2]

/-- An index of the result array is in tile `t`'s block iff each coordinate is in the block's range on its axis. -/
theorem mem_tile (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v31).slice (win1_3.rect t)).set ↔ _
  rw [View.set_slice_whole, Rect.mem_set_unit]
  exact Iff.rfl

/-- Every block row is some tile's. -/
theorem tile_onto : ∀ (b : Fin 25), ∃ t : Fin cfg1.N, win1_3.index t = ![b.val, 0] :=
  (by decide +kernel : ∀ (b : Fin 25), ∃ t : Fin grid1.N, win1_3.index t = ![b.val, 0])

/-- Every row of the result lies in a tile: row `r` in tile `r / 2000`. -/
theorem rows_covered (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, ht⟩ := tile_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_tile]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- THE RESULT ARRAY after the call. -/
theorem result (c : Dev nD) :
    (dat1 V c).arrAt 3 cfg1.N = cbRelu256 (V c main_v28) (V c main_v29) (V c main_v30) :=
  (dat1 V c).arrAt_eq_of_cover 3 (cbRelu256 (V c main_v28) (V c main_v29) (V c main_v30)) (fun t _ => tile_is_rows V c t) rows_covered

end Cert.KernelIdeal.Region1

end
-- ==== Proof.TileMM2.lean ====
import proofs.«171964_j2963527434974_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
One tile of the scaled feature transform. A tile holds 2000 rows of the node features; every row is multiplied by its
node's out-degree scale and then by the 256 × 256 weight matrix. Read at row `p`, column `q`, the tile's result
is `∑ k, (x p k · s p) · w k q` over the extended reals: the change of float format before the product is the identity
there, and the product into a zero accumulator is the plain sum.
-/

noncomputable section

namespace Cert.KernelIdeal.TileMM2

open Idealize.ShloMosaic Idealize.ShloMosaic.ValueIdx Cert.KernelIdeal Cert.KernelIdeal.Gen

/-- The left operand's row coordinate is the output's row. -/
theorem lhs_0 (i : S2000x256.Idx) (r : dot_S2000x256_S256x256_S2000x256_1_0_0_1_n_n.contr.Idx) : (dot_S2000x256_S256x256_S2000x256_1_0_0_1_n_n.lhsIdx i r 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column coordinate is the contraction index. -/
theorem lhs_1 (i : S2000x256.Idx) (r : dot_S2000x256_S256x256_S2000x256_1_0_0_1_n_n.contr.Idx) : (dot_S2000x256_S256x256_S2000x256_1_0_0_1_n_n.lhsIdx i r 1).val = (r ⟨0, by decide⟩).val :=
  dot_S2000x256_S256x256_S2000x256_1_0_0_1_n_n.lhsIdx_val_of_single rfl i r
/-- The right operand's row coordinate is the contraction index. -/
theorem rhs_0 (i : S2000x256.Idx) (r : dot_S2000x256_S256x256_S2000x256_1_0_0_1_n_n.contr.Idx) : (dot_S2000x256_S256x256_S2000x256_1_0_0_1_n_n.rhsIdx i r 0).val = (r ⟨0, by decide⟩).val :=
  dot_S2000x256_S256x256_S2000x256_1_0_0_1_n_n.rhsIdx_val_of_single rfl i r
/-- The right operand's column coordinate is the output's column. -/
theorem rhs_1 (i : S2000x256.Idx) (r : dot_S2000x256_S256x256_S2000x256_1_0_0_1_n_n.contr.Idx) : (dot_S2000x256_S256x256_S2000x256_1_0_0_1_n_n.rhsIdx i r 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The contraction's left operand index at output `(p, q)`, term `k`, is `(p, k)`. -/
theorem lhs_ix (p : Fin 2000) (q : Fin 256) (k : Fin 256) :
    dot_S2000x256_S256x256_S2000x256_1_0_0_1_n_n.lhsIdx (ix2 p q) ((contrEquiv1 dot_S2000x256_S256x256_S2000x256_1_0_0_1_n_n 256 rfl rfl).symm k) = ix2 p k := by
  have hk := contrEquiv1_symm_val dot_S2000x256_S256x256_S2000x256_1_0_0_1_n_n 256 rfl rfl k
  exact funext fun a => Fin.ext (by
    match a with
    | ⟨0, _⟩ => exact lhs_0 _ _
    | ⟨1, _⟩ => exact (lhs_1 _ _).trans hk)

/-- The contraction's right operand index at output `(p, q)`, term `k`, is `(k, q)`. -/
theorem rhs_ix (p : Fin 2000) (q : Fin 256) (k : Fin 256) :
    dot_S2000x256_S256x256_S2000x256_1_0_0_1_n_n.rhsIdx (ix2 p q) ((contrEquiv1 dot_S2000x256_S256x256_S2000x256_1_0_0_1_n_n 256 rfl rfl).symm k) = ix2 k q := by
  have hk := contrEquiv1_symm_val dot_S2000x256_S256x256_S2000x256_1_0_0_1_n_n 256 rfl rfl k
  exact funext fun a => Fin.ext (by
    match a with
    | ⟨0, _⟩ => exact (rhs_0 _ _).trans hk
    | ⟨1, _⟩ => exact rhs_1 _ _)

/-- A column of per-row scales spread along the rows: entry `(p, k)` is row `p`'s scale. -/
theorem scale_col (x1 : Vec Ideal S2000x1 .f32) (p : Fin 2000) (k : Fin 256) :
    broadcastTo S2000x256 (shapeCast S2000x1 x1 shapeCasts_S2000x1_S2000x1) broadcasts_S2000x1_S2000x256 (ix2 p k) = x1 (ix2 p 0) := by
  rw [shapeCast_self]
  exact broadcastTo_apply x1 _ (ix2 p k) (ix2 p 0) (fun a => by
    match a with
    | ⟨0, _⟩ => rfl
    | ⟨1, _⟩ => rfl)

/-- THE TILE at `(p, q)`: the sum over the 256 features of (feature · row scale) · weight. -/
theorem tile_apply (x0 : Vec Ideal S2000x256 .f32) (x1 : Vec Ideal S2000x1 .f32) (x2 : Vec Ideal S256x256 .f32) (p : Fin 2000) (q : Fin 256) :
    k2_pay1 x0 x1 x2 (ix2 p q) = ∑ k : Fin 256, (x0 (ix2 p k) * x1 (ix2 p 0)) * x2 (ix2 k q) := by
  unfold k2_pay1
  refine (Ideal.matmul_constant_zero_apply dot_S2000x256_S256x256_S2000x256_1_0_0_1_n_n none _ _ (ix2 p q)).trans ?_
  rw [← Equiv.sum_comp (contrEquiv1 dot_S2000x256_S256x256_S2000x256_1_0_0_1_n_n 256 rfl rfl).symm]
  refine Finset.sum_congr rfl fun k _ => ?_
  rw [lhs_ix, rhs_ix]
  show ((shapeCast S2000x256 x0 shapeCasts_S2000x256_S2000x256) (ix2 p k) * _) * x2 (ix2 k q) = _
  rw [scale_col]
  rw [shapeCast_self]

end Cert.KernelIdeal.TileMM2

end
-- ==== Proof.Region2.lean ====
import proofs.«171964_j2963527434974_1_alg».proof.Proof.Gen.KernelIdeal.Frame
import proofs.«171964_j2963527434974_1_alg».proof.Proof.TileMM2
import proofs.«171964_j2963527434974_1_alg».proof.Proof.Spec
import Idealize.ShloMosaic.Lib.Pipeline.Value

/-!
Pallas call 2 (a scaled feature transform), from its tiles to the whole array. The call walks the 50000 rows in 25 tiles
of 2000; tile `t` reads rows `2000·t … 2000·t + 1999` of the features and of the scale column, the whole weight
matrix, and writes the same rows of the result. Every row lies in exactly one tile, so after the call the result array
holds the scaled feature transform of the arrays the call found, entry by entry.
-/

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Where tile `t` sits: the row-tiled windows at block row `t`, the weight matrix always at its one block. -/
theorem tile_pos : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 25 :=
  (by decide +kernel : ∀ t : Fin grid2.N, _)

/-- WHAT TILE `t` WRITES BACK is its rows of the scaled feature transform of the arrays as the call finds them. -/
theorem tile_is_rows (c : Dev nD) (t : Fin cfg2.N) :
    (dat2 V c).flushed 3 t = ((cfg2.win 3).blk t).view.read (Elt Ideal) (mm256 (V c main_v31) (V c main_v49) (V c main_arg5)) := by
  show (cfg2.win 3).cut (grid2.coords t) ((dat2 V c).after 3 t) = _
  rw [after2_3]
  unfold out2_3
  rw [View.canon_unit_zero hz]
  simp only [View.ld_unit_zero (S := S2000x256) hz, View.ld_unit_zero (S := S2000x1) hz, View.ld_unit_zero (S := S256x256) hz]
  obtain ⟨e00, e01, e10, e11, e20, e21, e30, e31, ht⟩ := tile_pos t
  refine funext fun (j : S2000x256.Idx) => ?_
  obtain ⟨p, q, rfl⟩ : ∃ (p : Fin 2000) (q : Fin 256), j = ix2 p q := ⟨j 0, j 1, eq_ix2 j⟩
  refine (TileMM2.tile_apply (iblk2 V c 0 t) (iblk2 V c 1 t) (iblk2 V c 2 t) p q).trans ?_
  refine Eq.trans ?_ (mm256_apply (V c main_v31) (V c main_v49) (V c main_arg5) (((cfg2.win 3).blk t).view.emb (ix2 p q))).symm
  refine Finset.sum_congr rfl fun k _ => ?_
  have h0 : iblk2 V c 0 t (ix2 p k) = V c main_v31 (ix2 ((((cfg2.win 3).blk t).view.emb (ix2 p q)) 0) k) := by
    show V c main_v31 (((cfg2.win 0).blk t).view.emb (ix2 p k)) = _
    refine congrArg (V c main_v31) (funext fun a => Fin.ext ?_)
    match a with
    | ⟨0, _⟩ => show win2_0.index t (0 : Fin 2) * 2000 + 1 * p.val = win2_3.index t (0 : Fin 2) * 2000 + 1 * p.val; omega
    | ⟨1, _⟩ => show win2_0.index t (1 : Fin 2) * 256 + 1 * k.val = k.val; omega
  have h1 : iblk2 V c 1 t (ix2 p 0) = V c main_v49 (ix2 ((((cfg2.win 3).blk t).view.emb (ix2 p q)) 0) 0) := by
    show V c main_v49 (((cfg2.win 1).blk t).view.emb (ix2 p 0)) = _
    refine congrArg (V c main_v49) (funext fun a => Fin.ext ?_)
    match a with
    | ⟨0, _⟩ => show win2_1.index t (0 : Fin 2) * 2000 + 1 * p.val = win2_3.index t (0 : Fin 2) * 2000 + 1 * p.val; omega
    | ⟨1, _⟩ => show win2_1.index t (1 : Fin 2) * 1 + 1 * 0 = 0; omega
  have h2 : iblk2 V c 2 t (ix2 k q) = V c main_arg5 (ix2 k ((((cfg2.win 3).blk t).view.emb (ix2 p q)) 1)) := by
    show V c main_arg5 (((cfg2.win 2).blk t).view.emb (ix2 k q)) = _
    refine congrArg (V c main_arg5) (funext fun a => Fin.ext ?_)
    match a with
    | ⟨0, _⟩ => show win2_2.index t (0 : Fin 2) * 256 + 1 * k.val = k.val; omega
    | ⟨1, _⟩ => show win2_2.index t (1 : Fin 2) * 256 + 1 * q.val = win2_3.index t (1 : Fin 2) * 256 + 1 * q.val; omega
  rw [h0, h1, h2]

/-- An index of the result array is in tile `t`'s block iff each coordinate is in the block's range on its axis. -/
theorem mem_tile (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v50).slice (win2_3.rect t)).set ↔ _
  rw [View.set_slice_whole, Rect.mem_set_unit]
  exact Iff.rfl

/-- Every block row is some tile's. -/
theorem tile_onto : ∀ (b : Fin 25), ∃ t : Fin cfg2.N, win2_3.index t = ![b.val, 0] :=
  (by decide +kernel : ∀ (b : Fin 25), ∃ t : Fin grid2.N, win2_3.index t = ![b.val, 0])

/-- Every row of the result lies in a tile: row `r` in tile `r / 2000`. -/
theorem rows_covered (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  obtain ⟨t, ht⟩ := tile_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_tile]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- THE RESULT ARRAY after the call: the scaled feature transform of the arrays the call found. -/
theorem result (c : Dev nD) :
    (dat2 V c).arrAt 3 cfg2.N = mm256 (V c main_v31) (V c main_v49) (V c main_arg5) :=
  (dat2 V c).arrAt_eq_of_cover 3 (mm256 (V c main_v31) (V c main_v49) (V c main_arg5)) (fun t _ => tile_is_rows V c t) rows_covered

end Cert.KernelIdeal.Region2

end
-- ==== Proof.TileCB3.lean ====
import proofs.«171964_j2963527434974_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
One tile of the step that follows the neighbour sum. A tile holds 2000 rows of summed messages; every row is multiplied
by its node's in-degree scale, the bias row is added, and the result is cut off below at zero. Read at row `p`, column `q`, the
tile's result is `max (m p q · s p + b q) 0` over the extended reals.
-/

noncomputable section

namespace Cert.KernelIdeal.TileCB3

open Idealize.ShloMosaic Idealize.ShloMosaic.ValueIdx Cert.KernelIdeal Cert.KernelIdeal.Gen

/-- A column of per-row scales spread along the rows: entry `(p, q)` is row `p`'s scale. -/
theorem scale_col (x1 : Vec Ideal S2000x1 .f32) (p : Fin 2000) (q : Fin 256) :
    broadcastTo S2000x256 (shapeCast S2000x1 x1 shapeCasts_S2000x1_S2000x1) broadcasts_S2000x1_S2000x256 (ix2 p q) = x1 (ix2 p 0) := by
  rw [shapeCast_self]
  exact broadcastTo_apply x1 _ (ix2 p q) (ix2 p 0) (fun a => by
    match a with
    | ⟨0, _⟩ => rfl
    | ⟨1, _⟩ => rfl)

/-- The bias row spread down the rows: entry `(p, q)` is the bias of column `q`. -/
theorem bias_row (x2 : Vec Ideal S1x256 .f32) (p : Fin 2000) (q : Fin 256) :
    broadcastTo S2000x256 (shapeCast S1x256 x2 shapeCasts_S1x256_S1x256) broadcasts_S1x256_S2000x256 (ix2 p q) = x2 (ix2 0 q) := by
  rw [shapeCast_self]
  exact broadcastTo_apply x2 _ (ix2 p q) (ix2 0 q) (fun a => by
    match a with
    | ⟨0, _⟩ => rfl
    | ⟨1, _⟩ => rfl)

/-- THE TILE at `(p, q)`. -/
theorem tile_apply (x0 : Vec Ideal S2000x256 .f32) (x1 : Vec Ideal S2000x1 .f32) (x2 : Vec Ideal S1x256 .f32) (p : Fin 2000) (q : Fin 256) :
    k3_pay1 x0 x1 x2 (ix2 p q) = max (x0 (ix2 p q) * x1 (ix2 p 0) + x2 (ix2 0 q)) (Ideal.ofBits .f32 0x00000000#32) := by
  unfold k3_pay1
  show max ((shapeCast S2000x256 x0 shapeCasts_S2000x256_S2000x256) (ix2 p q)
      * (broadcastTo S2000x256 (shapeCast S2000x1 x1 shapeCasts_S2000x1_S2000x1) broadcasts_S2000x1_S2000x256) (ix2 p q)
      + (broadcastTo S2000x256 (shapeCast S1x256 x2 shapeCasts_S1x256_S1x256) broadcasts_S1x256_S2000x256) (ix2 p q)) _ = _
  rw [scale_col, bias_row, shapeCast_self]
  rfl

end Cert.KernelIdeal.TileCB3

end
-- ==== Proof.Region3.lean ====
import proofs.«171964_j2963527434974_1_alg».proof.Proof.Gen.KernelIdeal.Frame
import proofs.«171964_j2963527434974_1_alg».proof.Proof.TileCB3
import proofs.«171964_j2963527434974_1_alg».proof.Proof.Spec
import Idealize.ShloMosaic.Lib.Pipeline.Value

/-!
Pallas call 3 (the step after the neighbour sum), from its tiles to the whole array. The call walks the 50000 rows in 25
tiles of 2000; tile `t` reads rows `2000·t … 2000·t + 1999` of the summed messages and of the scale column, the whole
bias row, and writes the same rows of the result. Every row lies in exactly one tile, so after the call the result array
holds, entry by entry, the scaled and shifted sum of the arrays the call found.
-/

set_option maxRecDepth 16384

noncomputable section

namespace Cert.KernelIdeal.Region3

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Where tile `t` sits: the row-tiled windows at block row `t`, the bias row always at its one block. -/
theorem tile_pos : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 25 :=
  (by decide +kernel : ∀ t : Fin grid3.N, _)

/-- WHAT TILE `t` WRITES BACK is its rows of the scaled and shifted sum of the arrays as the call finds them. -/
theorem tile_is_rows (c : Dev nD) (t : Fin cfg3.N) :
    (dat3 V c).flushed 3 t = ((cfg3.win 3).blk t).view.read (Elt Ideal) (cbRelu256 (V c main_v60) (V c main_v61) (V c main_v62)) := by
  show (cfg3.win 3).cut (grid3.coords t) ((dat3 V c).after 3 t) = _
  rw [after3_3]
  unfold out3_3
  rw [View.canon_unit_zero hz]
  simp only [View.ld_unit_zero (S := S2000x256) hz, View.ld_unit_zero (S := S2000x1) hz, View.ld_unit_zero (S := S1x256) hz]
  obtain ⟨e00, e01, e10, e11, e20, e21, e30, e31, ht⟩ := tile_pos t
  refine funext fun (j : S2000x256.Idx) => ?_
  obtain ⟨p, q, rfl⟩ : ∃ (p : Fin 2000) (q : Fin 256), j = ix2 p q := ⟨j 0, j 1, eq_ix2 j⟩
  refine (TileCB3.tile_apply (iblk3 V c 0 t) (iblk3 V c 1 t) (iblk3 V c 2 t) p q).trans ?_
  refine Eq.trans ?_ (cbRelu256_apply (V c main_v60) (V c main_v61) (V c main_v62) (((cfg3.win 3).blk t).view.emb (ix2 p q))).symm
  have h0 : iblk3 V c 0 t (ix2 p q) = V c main_v60 (ix2 ((((cfg3.win 3).blk t).view.emb (ix2 p q)) 0) ((((cfg3.win 3).blk t).view.emb (ix2 p q)) 1)) := by
    show V c main_v60 (((cfg3.win 0).blk t).view.emb (ix2 p q)) = _
    refine congrArg (V c main_v60) (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 256 + 1 * q.val = win3_3.index t (1 : Fin 2) * 256 + 1 * q.val; omega
  have h1 : iblk3 V c 1 t (ix2 p 0) = V c main_v61 (ix2 ((((cfg3.win 3).blk t).view.emb (ix2 p q)) 0) 0) := by
    show V c main_v61 (((cfg3.win 1).blk t).view.emb (ix2 p 0)) = _
    refine congrArg (V c main_v61) (funext fun a => Fin.ext ?_)
    match a with
    | ⟨0, _⟩ => show win3_1.index t (0 : Fin 2) * 2000 + 1 * p.val = win3_3.index t (0 : Fin 2) * 2000 + 1 * p.val; omega
    | ⟨1, _⟩ => show win3_1.index t (1 : Fin 2) * 1 + 1 * 0 = 0; omega
  have h2 : iblk3 V c 2 t (ix2 0 q) = V c main_v62 (ix2 0 ((((cfg3.win 3).blk t).view.emb (ix2 p q)) 1)) := by
    show V c main_v62 (((cfg3.win 2).blk t).view.emb (ix2 0 q)) = _
    refine congrArg (V c main_v62) (funext fun a => Fin.ext ?_)
    match a with
    | ⟨0, _⟩ => show win3_2.index t (0 : Fin 2) * 1 + 1 * 0 = 0; omega
    | ⟨1, _⟩ => show win3_2.index t (1 : Fin 2) * 256 + 1 * q.val = win3_3.index t (1 : Fin 2) * 256 + 1 * q.val; omega
  rw [h0, h1, h2]

/-- An index of the result array is in tile `t`'s block iff each coordinate is in the block's range on its axis. -/
theorem mem_tile (t : Fin cfg3.N) (i : S50000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v63).slice (win3_3.rect t)).set ↔ _
  rw [View.set_slice_whole, Rect.mem_set_unit]
  exact Iff.rfl

/-- Every block row is some tile's. -/
theorem tile_onto : ∀ (b : Fin 25), ∃ t : Fin cfg3.N, win3_3.index t = ![b.val, 0] :=
  (by decide +kernel : ∀ (b : Fin 25), ∃ t : Fin grid3.N, win3_3.index t = ![b.val, 0])

/-- Every row of the result lies in a tile: row `r` in tile `r / 2000`. -/
theorem rows_covered (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  obtain ⟨t, ht⟩ := tile_onto ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_tile]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

/-- THE RESULT ARRAY after the call. -/
theorem result (c : Dev nD) :
    (dat3 V c).arrAt 3 cfg3.N = cbRelu256 (V c main_v60) (V c main_v61) (V c main_v62) :=
  (dat3 V c).arrAt_eq_of_cover 3 (cbRelu256 (V c main_v60) (V c main_v61) (V c main_v62)) (fun t _ => tile_is_rows V c t) rows_covered

end Cert.KernelIdeal.Region3

end
-- ==== Proof.TileMM4.lean ====
import proofs.«171964_j2963527434974_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
One tile of the scaled feature transform. A tile holds 2000 rows of the node features; every row is multiplied by its
node's out-degree scale and then by the 256 × 128 weight matrix. Read at row `p`, column `q`, the tile's result
is `∑ k, (x p k · s p) · w k q` over the extended reals: the change of float format before the product is the identity
there, and the product into a zero accumulator is the plain sum.
-/

noncomputable section

namespace Cert.KernelIdeal.TileMM4

open Idealize.ShloMosaic Idealize.ShloMosaic.ValueIdx Cert.KernelIdeal Cert.KernelIdeal.Gen

/-- The left operand's row coordinate is the output's row. -/
theorem lhs_0 (i : S2000x128.Idx) (r : dot_S2000x256_S256x128_S2000x128_1_0_0_1_n_n.contr.Idx) : (dot_S2000x256_S256x128_S2000x128_1_0_0_1_n_n.lhsIdx i r 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's column coordinate is the contraction index. -/
theorem lhs_1 (i : S2000x128.Idx) (r : dot_S2000x256_S256x128_S2000x128_1_0_0_1_n_n.contr.Idx) : (dot_S2000x256_S256x128_S2000x128_1_0_0_1_n_n.lhsIdx i r 1).val = (r ⟨0, by decide⟩).val :=
  dot_S2000x256_S256x128_S2000x128_1_0_0_1_n_n.lhsIdx_val_of_single rfl i r
/-- The right operand's row coordinate is the contraction index. -/
theorem rhs_0 (i : S2000x128.Idx) (r : dot_S2000x256_S256x128_S2000x128_1_0_0_1_n_n.contr.Idx) : (dot_S2000x256_S256x128_S2000x128_1_0_0_1_n_n.rhsIdx i r 0).val = (r ⟨0, by decide⟩).val :=
  dot_S2000x256_S256x128_S2000x128_1_0_0_1_n_n.rhsIdx_val_of_single rfl i r
/-- The right operand's column coordinate is the output's column. -/
theorem rhs_1 (i : S2000x128.Idx) (r : dot_S2000x256_S256x128_S2000x128_1_0_0_1_n_n.contr.Idx) : (dot_S2000x256_S256x128_S2000x128_1_0_0_1_n_n.rhsIdx i r 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The contraction's left operand index at output `(p, q)`, term `k`, is `(p, k)`. -/
theorem lhs_ix (p : Fin 2000) (q : Fin 128) (k : Fin 256) :
    dot_S2000x256_S256x128_S2000x128_1_0_0_1_n_n.lhsIdx (ix2 p q) ((contrEquiv1 dot_S2000x256_S256x128_S2000x128_1_0_0_1_n_n 256 rfl rfl).symm k) = ix2 p k := by
  have hk := contrEquiv1_symm_val dot_S2000x256_S256x128_S2000x128_1_0_0_1_n_n 256 rfl rfl k
  exact funext fun a => Fin.ext (by
    match a with
    | ⟨0, _⟩ => exact lhs_0 _ _
    | ⟨1, _⟩ => exact (lhs_1 _ _).trans hk)

/-- The contraction's right operand index at output `(p, q)`, term `k`, is `(k, q)`. -/
theorem rhs_ix (p : Fin 2000) (q : Fin 128) (k : Fin 256) :
    dot_S2000x256_S256x128_S2000x128_1_0_0_1_n_n.rhsIdx (ix2 p q) ((contrEquiv1 dot_S2000x256_S256x128_S2000x128_1_0_0_1_n_n 256 rfl rfl).symm k) = ix2 k q := by
  have hk := contrEquiv1_symm_val dot_S2000x256_S256x128_S2000x128_1_0_0_1_n_n 256 rfl rfl k
  exact funext fun a => Fin.ext (by
    match a with
    | ⟨0, _⟩ => exact (rhs_0 _ _).trans hk
    | ⟨1, _⟩ => exact rhs_1 _ _)

/-- A column of per-row scales spread along the rows: entry `(p, k)` is row `p`'s scale. -/
theorem scale_col (x1 : Vec Ideal S2000x1 .f32) (p : Fin 2000) (k : Fin 256) :
    broadcastTo S2000x256 (shapeCast S2000x1 x1 shapeCasts_S2000x1_S2000x1) broadcasts_S2000x1_S2000x256 (ix2 p k) = x1 (ix2 p 0) := by
  rw [shapeCast_self]
  exact broadcastTo_apply x1 _ (ix2 p k) (ix2 p 0) (fun a => by
    match a with
    | ⟨0, _⟩ => rfl
    | ⟨1, _⟩ => rfl)

/-- THE TILE at `(p, q)`: the sum over the 256 features of (feature · row scale) · weight. -/
theorem tile_apply (x0 : Vec Ideal S2000x256 .f32) (x1 : Vec Ideal S2000x1 .f32) (x2 : Vec Ideal S256x128 .f32) (p : Fin 2000) (q : Fin 128) :
    k4_pay1 x0 x1 x2 (ix2 p q) = ∑ k : Fin 256, (x0 (ix2 p k) * x1 (ix2 p 0)) * x2 (ix2 k q) := by
  unfold k4_pay1
  refine (Ideal.matmul_constant_zero_apply dot_S2000x256_S256x128_S2000x128_1_0_0_1_n_n none _ _ (ix2 p q)).trans ?_
  rw [← Equiv.sum_comp (contrEquiv1 dot_S2000x256_S256x128_S2000x128_1_0_0_1_n_n 256 rfl rfl).symm]
  refine Finset.sum_congr rfl fun k _ => ?_
  rw [lhs_ix, rhs_ix]
  show ((shapeCast S2000x256 x0 shapeCasts_S2000x256_S2000x256) (ix2 p k) * _) * x2 (ix2 k q) = _
  rw [scale_col]
  rw [shapeCast_self]

end Cert.KernelIdeal.TileMM4

end
-- ==== Proof.Region4.lean ====
import proofs.«171964_j2963527434974_1_alg».proof.Proof.Gen.KernelIdeal.Frame
import proofs.«171964_j2963527434974_1_alg».proof.Proof.TileMM4
import proofs.«171964_j2963527434974_1_alg».proof.Proof.Spec
import Idealize.ShloMosaic.Lib.Pipeline.Value

/-!
Pallas call 4 (a scaled feature transform), from its tiles to the whole array. The call walks the 50000 rows in 25 tiles
of 2000; tile `t` reads rows `2000·t … 2000·t + 1999` of the features and of the scale column, the whole weight
matrix, and writes the same rows of the result. Every row lies in exactly one tile, so after the call the result array
holds the scaled feature transform of the arrays the call found, entry by entry.
-/

set_option maxRecDepth 16384

noncomputable section

namespace Cert.KernelIdeal.Region4

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Where tile `t` sits: the row-tiled windows at block row `t`, the weight matrix always at its one block. -/
theorem tile_pos : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 ∧ t.val < 25 :=
  (by decide +kernel : ∀ t : Fin grid4.N, _)

/-- WHAT TILE `t` WRITES BACK is its rows of the scaled feature transform of the arrays as the call finds them. -/
theorem tile_is_rows (c : Dev nD) (t : Fin cfg4.N) :
    (dat4 V c).flushed 3 t = ((cfg4.win 3).blk t).view.read (Elt Ideal) (mm128 (V c main_v63) (V c main_v81) (V c main_arg7)) := by
  show (cfg4.win 3).cut (grid4.coords t) ((dat4 V c).after 3 t) = _
  rw [after4_3]
  unfold out4_3
  rw [View.canon_unit_zero hz]
  simp only [View.ld_unit_zero (S := S2000x256) hz, View.ld_unit_zero (S := S2000x1) hz, View.ld_unit_zero (S := S256x128) hz]
  obtain ⟨e00, e01, e10, e11, e20, e21, e30, e31, ht⟩ := tile_pos t
  refine funext fun (j : S2000x128.Idx) => ?_
  obtain ⟨p, q, rfl⟩ : ∃ (p : Fin 2000) (q : Fin 128), j = ix2 p q := ⟨j 0, j 1, eq_ix2 j⟩
  refine (TileMM4.tile_apply (iblk4 V c 0 t) (iblk4 V c 1 t) (iblk4 V c 2 t) p q).trans ?_
  refine Eq.trans ?_ (mm128_apply (V c main_v63) (V c main_v81) (V c main_arg7) (((cfg4.win 3).blk t).view.emb (ix2 p q))).symm
  refine Finset.sum_congr rfl fun k _ => ?_
  have h0 : iblk4 V c 0 t (ix2 p k) = V c main_v63 (ix2 ((((cfg4.win 3).blk t).view.emb (ix2 p q)) 0) k) := by
    show V c main_v63 (((cfg4.win 0).blk t).view.emb (ix2 p k)) = _
    refine congrArg (V c main_v63) (funext fun a => Fin.ext ?_)
    match a with
    | ⟨0, _⟩ => show win4_0.index t (0 : Fin 2) * 2000 + 1 * p.val = win4_3.index t (0 : Fin 2) * 2000 + 1 * p.val; omega
    | ⟨1, _⟩ => show win4_0.index t (1 : Fin 2) * 256 + 1 * k.val = k.val; omega
  have h1 : iblk4 V c 1 t (ix2 p 0) = V c main_v81 (ix2 ((((cfg4.win 3).blk t).view.emb (ix2 p q)) 0) 0) := by
    show V c main_v81 (((cfg4.win 1).blk t).view.emb (ix2 p 0)) = _
    refine congrArg (V c main_v81) (funext fun a => Fin.ext ?_)
    match a with
    | ⟨0, _⟩ => show win4_1.index t (0 : Fin 2) * 2000 + 1 * p.val = win4_3.index t (0 : Fin 2) * 2000 + 1 * p.val; omega
    | ⟨1, _⟩ => show win4_1.index t (1 : Fin 2) * 1 + 1 * 0 = 0; omega
  have h2 : iblk4 V c 2 t (ix2 k q) = V c main_arg7 (ix2 k ((((cfg4.win 3).blk t).view.emb (ix2 p q)) 1)) := by
    show V c main_arg7 (((cfg4.win 2).blk t).view.emb (ix2 k q)) = _
    refine congrArg (V c main_arg7) (funext fun a => Fin.ext ?_)
    match a with
    | ⟨0, _⟩ => show win4_2.index t (0 : Fin 2) * 256 + 1 * k.val = k.val; omega
    | ⟨1, _⟩ => show win4_2.index t (1 : Fin 2) * 128 + 1 * q.val = win4_3.index t (1 : Fin 2) * 128 + 1 * q.val; omega
  rw [h0, h1, h2]

/-- An index of the result array is in tile `t`'s block iff each coordinate is in the block's range on its axis. -/
theorem mem_tile (t : Fin cfg4.N) (i : S50000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v82).slice (win4_3.rect t)).set ↔ _
  rw [View.set_slice_whole, Rect.mem_set_unit]
  exact Iff.rfl

/-- Every block row is some tile's. -/
theorem tile_onto : ∀ (b : Fin 25), ∃ t : Fin cfg4.N, win4_3.index t = ![b.val, 0] :=
  (by decide +kernel : ∀ (b : Fin 25), ∃ t : Fin grid4.N, win4_3.index t = ![b.val, 0])

/-- Every row of the result lies in a tile: row `r` in tile `r / 2000`. -/
theorem rows_covered (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  obtain ⟨t, ht⟩ := tile_onto ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_tile]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- THE RESULT ARRAY after the call: the scaled feature transform of the arrays the call found. -/
theorem result (c : Dev nD) :
    (dat4 V c).arrAt 3 cfg4.N = mm128 (V c main_v63) (V c main_v81) (V c main_arg7) :=
  (dat4 V c).arrAt_eq_of_cover 3 (mm128 (V c main_v63) (V c main_v81) (V c main_arg7)) (fun t _ => tile_is_rows V c t) rows_covered

end Cert.KernelIdeal.Region4

end
-- ==== Proof.TileCB5.lean ====
import proofs.«171964_j2963527434974_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
One tile of the step that follows the neighbour sum. A tile holds 2000 rows of summed messages; every row is multiplied
by its node's in-degree scale, the bias row is added. Read at row `p`, column `q`, the
tile's result is `m p q · s p + b q` over the extended reals.
-/

noncomputable section

namespace Cert.KernelIdeal.TileCB5

open Idealize.ShloMosaic Idealize.ShloMosaic.ValueIdx Cert.KernelIdeal Cert.KernelIdeal.Gen

/-- A column of per-row scales spread along the rows: entry `(p, q)` is row `p`'s scale. -/
theorem scale_col (x1 : Vec Ideal S2000x1 .f32) (p : Fin 2000) (q : Fin 128) :
    broadcastTo S2000x128 (shapeCast S2000x1 x1 shapeCasts_S2000x1_S2000x1) broadcasts_S2000x1_S2000x128 (ix2 p q) = x1 (ix2 p 0) := by
  rw [shapeCast_self]
  exact broadcastTo_apply x1 _ (ix2 p q) (ix2 p 0) (fun a => by
    match a with
    | ⟨0, _⟩ => rfl
    | ⟨1, _⟩ => rfl)

/-- The bias row spread down the rows: entry `(p, q)` is the bias of column `q`. -/
theorem bias_row (x2 : Vec Ideal S1x128 .f32) (p : Fin 2000) (q : Fin 128) :
    broadcastTo S2000x128 (shapeCast S1x128 x2 shapeCasts_S1x128_S1x128) broadcasts_S1x128_S2000x128 (ix2 p q) = x2 (ix2 0 q) := by
  rw [shapeCast_self]
  exact broadcastTo_apply x2 _ (ix2 p q) (ix2 0 q) (fun a => by
    match a with
    | ⟨0, _⟩ => rfl
    | ⟨1, _⟩ => rfl)

/-- THE TILE at `(p, q)`. -/
theorem tile_apply (x0 : Vec Ideal S2000x128 .f32) (x1 : Vec Ideal S2000x1 .f32) (x2 : Vec Ideal S1x128 .f32) (p : Fin 2000) (q : Fin 128) :
    k5_pay1 x0 x1 x2 (ix2 p q) = x0 (ix2 p q) * x1 (ix2 p 0) + x2 (ix2 0 q) := by
  unfold k5_pay1
  show (shapeCast S2000x128 x0 shapeCasts_S2000x128_S2000x128) (ix2 p q)
      * (broadcastTo S2000x128 (shapeCast S2000x1 x1 shapeCasts_S2000x1_S2000x1) broadcasts_S2000x1_S2000x128) (ix2 p q)
      + (broadcastTo S2000x128 (shapeCast S1x128 x2 shapeCasts_S1x128_S1x128) broadcasts_S1x128_S2000x128) (ix2 p q) = _
  rw [scale_col, bias_row, shapeCast_self]

end Cert.KernelIdeal.TileCB5

end
-- ==== Proof.Region5.lean ====
import proofs.«171964_j2963527434974_1_alg».proof.Proof.Gen.KernelIdeal.Frame
import proofs.«171964_j2963527434974_1_alg».proof.Proof.TileCB5
import proofs.«171964_j2963527434974_1_alg».proof.Proof.Spec
import Idealize.ShloMosaic.Lib.Pipeline.Value

/-!
Pallas call 5 (the step after the neighbour sum), from its tiles to the whole array. The call walks the 50000 rows in 25
tiles of 2000; tile `t` reads rows `2000·t … 2000·t + 1999` of the summed messages and of the scale column, the whole
bias row, and writes the same rows of the result. Every row lies in exactly one tile, so after the call the result array
holds, entry by entry, the scaled and shifted sum of the arrays the call found.
-/

set_option maxRecDepth 16384

noncomputable section

namespace Cert.KernelIdeal.Region5

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Where tile `t` sits: the row-tiled windows at block row `t`, the bias row always at its one block. -/
theorem tile_pos : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 ∧ t.val < 25 :=
  (by decide +kernel : ∀ t : Fin grid5.N, _)

/-- WHAT TILE `t` WRITES BACK is its rows of the scaled and shifted sum of the arrays as the call finds them. -/
theorem tile_is_rows (c : Dev nD) (t : Fin cfg5.N) :
    (dat5 V c).flushed 3 t = ((cfg5.win 3).blk t).view.read (Elt Ideal) (cbLin128 (V c main_v92) (V c main_v93) (V c main_v94)) := by
  show (cfg5.win 3).cut (grid5.coords t) ((dat5 V c).after 3 t) = _
  rw [after5_3]
  unfold out5_3
  rw [View.canon_unit_zero hz]
  simp only [View.ld_unit_zero (S := S2000x128) hz, View.ld_unit_zero (S := S2000x1) hz, View.ld_unit_zero (S := S1x128) hz]
  obtain ⟨e00, e01, e10, e11, e20, e21, e30, e31, ht⟩ := tile_pos t
  refine funext fun (j : S2000x128.Idx) => ?_
  obtain ⟨p, q, rfl⟩ : ∃ (p : Fin 2000) (q : Fin 128), j = ix2 p q := ⟨j 0, j 1, eq_ix2 j⟩
  refine (TileCB5.tile_apply (iblk5 V c 0 t) (iblk5 V c 1 t) (iblk5 V c 2 t) p q).trans ?_
  refine Eq.trans ?_ (cbLin128_apply (V c main_v92) (V c main_v93) (V c main_v94) (((cfg5.win 3).blk t).view.emb (ix2 p q))).symm
  have h0 : iblk5 V c 0 t (ix2 p q) = V c main_v92 (ix2 ((((cfg5.win 3).blk t).view.emb (ix2 p q)) 0) ((((cfg5.win 3).blk t).view.emb (ix2 p q)) 1)) := by
    show V c main_v92 (((cfg5.win 0).blk t).view.emb (ix2 p q)) = _
    refine congrArg (V c main_v92) (funext fun a => Fin.ext ?_)
    match a with
    | ⟨0, _⟩ => show win5_0.index t (0 : Fin 2) * 2000 + 1 * p.val = win5_3.index t (0 : Fin 2) * 2000 + 1 * p.val; omega
    | ⟨1, _⟩ => show win5_0.index t (1 : Fin 2) * 128 + 1 * q.val = win5_3.index t (1 : Fin 2) * 128 + 1 * q.val; omega
  have h1 : iblk5 V c 1 t (ix2 p 0) = V c main_v93 (ix2 ((((cfg5.win 3).blk t).view.emb (ix2 p q)) 0) 0) := by
    show V c main_v93 (((cfg5.win 1).blk t).view.emb (ix2 p 0)) = _
    refine congrArg (V c main_v93) (funext fun a => Fin.ext ?_)
    match a with
    | ⟨0, _⟩ => show win5_1.index t (0 : Fin 2) * 2000 + 1 * p.val = win5_3.index t (0 : Fin 2) * 2000 + 1 * p.val; omega
    | ⟨1, _⟩ => show win5_1.index t (1 : Fin 2) * 1 + 1 * 0 = 0; omega
  have h2 : iblk5 V c 2 t (ix2 0 q) = V c main_v94 (ix2 0 ((((cfg5.win 3).blk t).view.emb (ix2 p q)) 1)) := by
    show V c main_v94 (((cfg5.win 2).blk t).view.emb (ix2 0 q)) = _
    refine congrArg (V c main_v94) (funext fun a => Fin.ext ?_)
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  rw [h0, h1, h2]

/-- An index of the result array is in tile `t`'s block iff each coordinate is in the block's range on its axis. -/
theorem mem_tile (t : Fin cfg5.N) (i : S50000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v95).slice (win5_3.rect t)).set ↔ _
  rw [View.set_slice_whole, Rect.mem_set_unit]
  exact Iff.rfl

/-- Every block row is some tile's. -/
theorem tile_onto : ∀ (b : Fin 25), ∃ t : Fin cfg5.N, win5_3.index t = ![b.val, 0] :=
  (by decide +kernel : ∀ (b : Fin 25), ∃ t : Fin grid5.N, win5_3.index t = ![b.val, 0])

/-- Every row of the result lies in a tile: row `r` in tile `r / 2000`. -/
theorem rows_covered (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ := tile_onto ⟨(i 0).val / 2000, by omega⟩
  have q0 : win5_3.index t (0 : Fin 2) = (i 0).val / 2000 := congrFun ht 0
  have q1 : win5_3.index t (1 : Fin 2) = 0 := congrFun ht 1
  refine ⟨t, flush5_3 t, ?_⟩
  rw [mem_tile]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 128 ≤ (i 1).val ∧ (i 1).val < win5_3.index t (1 : Fin 2) * 128 + 128; omega

/-- THE RESULT ARRAY after the call. -/
theorem result (c : Dev nD) :
    (dat5 V c).arrAt 3 cfg5.N = cbLin128 (V c main_v92) (V c main_v93) (V c main_v94) :=
  (dat5 V c).arrAt_eq_of_cover 3 (cbLin128 (V c main_v92) (V c main_v93) (V c main_v94)) (fun t _ => tile_is_rows V c t) rows_covered

end Cert.KernelIdeal.Region5

end
-- ==== Proof.HostFns.lean ====
import proofs.«171964_j2963527434974_1_alg».proof.Proof.Gen.KernelIdeal
import Idealize.ShloMosaic.PureOps.Ideal

/-!
The host-side pieces of one graph-convolution layer, as functions of the arrays they read, at any interpretation of the floats. They are the same in every
layer and the same in both programs:

* `deg e`: how many edges have each node at the listed end (a scatter-add of ones over the edge list `e`);
* `scale e`: the degree raised to the power −1/2, with 1 in place of the degree of a node no edge touches;
* `col`, `row256`, `row128`: a vector laid out as a one-column, resp. one-row, matrix (what the Pallas calls are handed);
* `aggr256`, `aggr128`: the neighbour sum — gather the transformed features of every edge's source, scatter-add them
  into the edge's destination.
-/

noncomputable section

namespace Cert.KernelIdeal.HostFns

open Idealize.ShloMosaic Cert.KernelIdeal Cert.KernelIdeal.Gen

variable {F : FTy → Type} [FloatOps F]

/-- An edge list: one node index per edge. -/
abbrev Edges (F : FTy → Type) [FloatOps F] := (⟨S800000, .i32⟩ : BufTy).Contents (Elt F)

/-- The number of listed edge ends at each node. -/
def deg (e : Edges F) : FVec F S50000 .f32 :=
  Host.scatterAdd scatter_S50000_S800000x1_S800000_n_0_0_1
    (broadcastInDim S50000 ![] bcast_S_S50000 (constant (F := F) S_ .f32 0x00000000#32))
    (broadcastInDim S800000x1 ![0] bcast_S800000_S800000x1_0 e)
    (broadcastInDim S800000 ![] bcast_S_S800000 (constant (F := F) S_ .f32 0x3F800000#32))

/-- The degree scale `max(deg, 1 if deg = 0)^(-1/2)`: where the degree is positive it is the degree, elsewhere 1; then
    the power −1/2. -/
def scale (e : Edges F) : FVec F S50000 .f32 :=
  Host.powf
    (select (cmpf (F := F) .ogt (deg e) (broadcastInDim S50000 ![] bcast_S_S50000 (constant (F := F) S_ .f32 0x00000000#32)))
      (deg e)
      (broadcastInDim S50000 ![] bcast_S_S50000 (id (constant (F := F) S_ .f32 0x3F800000#32))))
    (broadcastInDim S50000 ![] bcast_S_S50000 (constant (F := F) S_ .f32 0xBF000000#32))

/-- A vector over the nodes as a one-column matrix. -/
def col (n : FVec F S50000 .f32) : FVec F S50000x1 .f32 :=
  fun i => shapeCast S50000x1 n shapeCasts_S50000_S50000x1 i

/-- A bias vector as a one-row matrix (256 features). -/
def row256 (b : FVec F S256 .f32) : FVec F S1x256 .f32 :=
  fun i => shapeCast S1x256 b shapeCasts_S256_S1x256 i

/-- A bias vector as a one-row matrix (128 features). -/
def row128 (b : FVec F S128 .f32) : FVec F S1x128 .f32 :=
  fun i => shapeCast S1x128 b shapeCasts_S128_S1x128 i

/-- The edge sources as gather indices: a negative index counts from the end (none is, for a valid edge list, but the
    program computes it). -/
def wrap (src : Edges F) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32)))
      src)

/-- The neighbour sum over 256 features. -/
def aggr256 (h : FVec F S50000x256 .f32) (src dst : Edges F) : FVec F S50000x256 .f32 :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 dst)
    (Host.gather gather_S50000x256_S800000x1_S800000x256_1_0_n_n_0_1_1256 h (wrap src))

/-- The neighbour sum over 128 features. -/
def aggr128 (h : FVec F S50000x128 .f32) (src dst : Edges F) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (Host.gather gather_S50000x128_S800000x1_S800000x128_1_0_n_n_0_1_1128 h (wrap src))

end Cert.KernelIdeal.HostFns

end
-- ==== Proof.HostG0.lean ====
import proofs.«171964_j2963527434974_1_alg».proof.Proof.Gen.KernelIdeal.Launch
import proofs.«171964_j2963527434974_1_alg».proof.Proof.HostFns
import Idealize.ShloMosaic.Lib.StableHlo.Run

/-!
The host operations before the first Pallas call: the two degree scales of layer 1, and the out-degree scale laid out as a column.
Each statement is at any interpretation of the floats and for ANY contents `X` of the TensorCore's buffers before the stretch: it names what one buffer holds
afterwards as a function of what the buffers it depends on held before. A buffer no operation of the stretch writes
holds what it held.
-/

set_option maxRecDepth 16384
set_option maxHeartbeats 4000000

noncomputable section

namespace Cert.KernelIdeal.HostG0

open Idealize.ShloMosaic Idealize.ShloMosaic.TcCoe Idealize.SL.Sem Idealize.ShloMosaic.StableHlo
open Cert.KernelIdeal Cert.KernelIdeal.Gen Cert.KernelIdeal.HostFns

variable {F : FTy → Type} [FloatOps F]

/-- The buffers' contents after the stretch, from contents `X`. -/
abbrev out (X : Valuation τ sig (Elt F)) : Valuation τ sig (Elt F) :=
  StableHlo.after hostOps0_4 (StableHlo.after hostOps0_3 (StableHlo.after hostOps0_2 (StableHlo.after hostOps0_1 (StableHlo.after hostOps0 (X)))))

/-- The out-degree scale, as a column. -/
theorem at_v17 (X : Valuation τ sig (Elt F)) :
    out X (Proc.devRef .tc main_v17) = col (scale (X (Proc.devRef .tc main_arg1))) := by
  simp only [out, hostOps0, hostOps0_1, hostOps0_2, hostOps0_3, hostOps0_4]
  after_results_simp <;> rfl

/-- The in-degree scale. -/
theorem at_v16 (X : Valuation τ sig (Elt F)) :
    out X (Proc.devRef .tc main_v16) = scale (X (Proc.devRef .tc main_arg2)) := by
  simp only [out, hostOps0, hostOps0_1, hostOps0_2, hostOps0_3, hostOps0_4]
  after_results_simp <;> rfl

/-- Not written: it holds what it held. -/
theorem at_arg0 (X : Valuation τ sig (Elt F)) :
    out X (Proc.devRef .tc main_arg0) = X (Proc.devRef .tc main_arg0) := by
  simp only [out, hostOps0, hostOps0_1, hostOps0_2, hostOps0_3, hostOps0_4]
  after_results_simp <;> rfl

/-- Not written: it holds what it held. -/
theorem at_arg1 (X : Valuation τ sig (Elt F)) :
    out X (Proc.devRef .tc main_arg1) = X (Proc.devRef .tc main_arg1) := by
  simp only [out, hostOps0, hostOps0_1, hostOps0_2, hostOps0_3, hostOps0_4]
  after_results_simp <;> rfl

/-- Not written: it holds what it held. -/
theorem at_arg2 (X : Valuation τ sig (Elt F)) :
    out X (Proc.devRef .tc main_arg2) = X (Proc.devRef .tc main_arg2) := by
  simp only [out, hostOps0, hostOps0_1, hostOps0_2, hostOps0_3, hostOps0_4]
  after_results_simp <;> rfl

/-- Not written: it holds what it held. -/
theorem at_arg3 (X : Valuation τ sig (Elt F)) :
    out X (Proc.devRef .tc main_arg3) = X (Proc.devRef .tc main_arg3) := by
  simp only [out, hostOps0, hostOps0_1, hostOps0_2, hostOps0_3, hostOps0_4]
  after_results_simp <;> rfl

/-- Not written: it holds what it held. -/
theorem at_arg4 (X : Valuation τ sig (Elt F)) :
    out X (Proc.devRef .tc main_arg4) = X (Proc.devRef .tc main_arg4) := by
  simp only [out, hostOps0, hostOps0_1, hostOps0_2, hostOps0_3, hostOps0_4]
  after_results_simp <;> rfl

/-- Not written: it holds what it held. -/
theorem at_arg5 (X : Valuation τ sig (Elt F)) :
    out X (Proc.devRef .tc main_arg5) = X (Proc.devRef .tc main_arg5) := by
  simp only [out, hostOps0, hostOps0_1, hostOps0_2, hostOps0_3, hostOps0_4]
  after_results_simp <;> rfl

/-- Not written: it holds what it held. -/
theorem at_arg6 (X : Valuation τ sig (Elt F)) :
    out X (Proc.devRef .tc main_arg6) = X (Proc.devRef .tc main_arg6) := by
  simp only [out, hostOps0, hostOps0_1, hostOps0_2, hostOps0_3, hostOps0_4]
  after_results_simp <;> rfl

/-- Not written: it holds what it held. -/
theorem at_arg7 (X : Valuation τ sig (Elt F)) :
    out X (Proc.devRef .tc main_arg7) = X (Proc.devRef .tc main_arg7) := by
  simp only [out, hostOps0, hostOps0_1, hostOps0_2, hostOps0_3, hostOps0_4]
  after_results_simp <;> rfl

/-- Not written: it holds what it held. -/
theorem at_arg8 (X : Valuation τ sig (Elt F)) :
    out X (Proc.devRef .tc main_arg8) = X (Proc.devRef .tc main_arg8) := by
  simp only [out, hostOps0, hostOps0_1, hostOps0_2, hostOps0_3, hostOps0_4]
  after_results_simp <;> rfl

end Cert.KernelIdeal.HostG0

end
-- ==== Proof.HostG1.lean ====
import proofs.«171964_j2963527434974_1_alg».proof.Proof.Gen.KernelIdeal.Launch
import proofs.«171964_j2963527434974_1_alg».proof.Proof.HostFns
import Idealize.ShloMosaic.Lib.StableHlo.Run

/-!
The host operations between the first and the second Pallas call: the neighbour sum of layer 1, the in-degree scale as a column and the bias as a row.
Each statement is at any interpretation of the floats and for ANY contents `X` of the TensorCore's buffers before the stretch: it names what one buffer holds
afterwards as a function of what the buffers it depends on held before. A buffer no operation of the stretch writes
holds what it held.
-/

set_option maxRecDepth 16384
set_option maxHeartbeats 4000000

noncomputable section

namespace Cert.KernelIdeal.HostG1

open Idealize.ShloMosaic Idealize.ShloMosaic.TcCoe Idealize.SL.Sem Idealize.ShloMosaic.StableHlo
open Cert.KernelIdeal Cert.KernelIdeal.Gen Cert.KernelIdeal.HostFns

variable {F : FTy → Type} [FloatOps F]

/-- The buffers' contents after the stretch, from contents `X`. -/
abbrev out (X : Valuation τ sig (Elt F)) : Valuation τ sig (Elt F) :=
  StableHlo.after hostOps1 (X)

/-- The neighbour sum of the transformed features. -/
theorem at_v28 (X : Valuation τ sig (Elt F)) :
    out X (Proc.devRef .tc main_v28) = aggr256 (X (Proc.devRef .tc main_v18)) (X (Proc.devRef .tc main_arg1)) (X (Proc.devRef .tc main_arg2)) := by
  simp only [out, hostOps1]
  after_results_simp <;> rfl

/-- The in-degree scale, as a column. -/
theorem at_v29 (X : Valuation τ sig (Elt F)) :
    out X (Proc.devRef .tc main_v29) = col (X (Proc.devRef .tc main_v16)) := by
  simp only [out, hostOps1]
  after_results_simp <;> rfl

/-- The bias, as a row. -/
theorem at_v30 (X : Valuation τ sig (Elt F)) :
    out X (Proc.devRef .tc main_v30) = row256 (X (Proc.devRef .tc main_arg4)) := by
  simp only [out, hostOps1]
  after_results_simp <;> rfl

/-- Not written: it holds what it held. -/
theorem at_arg1 (X : Valuation τ sig (Elt F)) :
    out X (Proc.devRef .tc main_arg1) = X (Proc.devRef .tc main_arg1) := by
  simp only [out, hostOps1]
  after_results_simp <;> rfl

/-- Not written: it holds what it held. -/
theorem at_arg2 (X : Valuation τ sig (Elt F)) :
    out X (Proc.devRef .tc main_arg2) = X (Proc.devRef .tc main_arg2) := by
  simp only [out, hostOps1]
  after_results_simp <;> rfl

/-- Not written: it holds what it held. -/
theorem at_arg5 (X : Valuation τ sig (Elt F)) :
    out X (Proc.devRef .tc main_arg5) = X (Proc.devRef .tc main_arg5) := by
  simp only [out, hostOps1]
  after_results_simp <;> rfl

/-- Not written: it holds what it held. -/
theorem at_arg6 (X : Valuation τ sig (Elt F)) :
    out X (Proc.devRef .tc main_arg6) = X (Proc.devRef .tc main_arg6) := by
  simp only [out, hostOps1]
  after_results_simp <;> rfl

/-- Not written: it holds what it held. -/
theorem at_arg7 (X : Valuation τ sig (Elt F)) :
    out X (Proc.devRef .tc main_arg7) = X (Proc.devRef .tc main_arg7) := by
  simp only [out, hostOps1]
  after_results_simp <;> rfl

/-- Not written: it holds what it held. -/
theorem at_arg8 (X : Valuation τ sig (Elt F)) :
    out X (Proc.devRef .tc main_arg8) = X (Proc.devRef .tc main_arg8) := by
  simp only [out, hostOps1]
  after_results_simp <;> rfl

end Cert.KernelIdeal.HostG1

end
-- ==== Proof.HostG2.lean ====
import proofs.«171964_j2963527434974_1_alg».proof.Proof.Gen.KernelIdeal.Launch
import proofs.«171964_j2963527434974_1_alg».proof.Proof.HostFns
import Idealize.ShloMosaic.Lib.StableHlo.Run

/-!
The host operations between the second and the third Pallas call: the two degree scales, computed again for layer 2.
Each statement is at any interpretation of the floats and for ANY contents `X` of the TensorCore's buffers before the stretch: it names what one buffer holds
afterwards as a function of what the buffers it depends on held before. A buffer no operation of the stretch writes
holds what it held.
-/

set_option maxRecDepth 16384
set_option maxHeartbeats 4000000

noncomputable section

namespace Cert.KernelIdeal.HostG2

open Idealize.ShloMosaic Idealize.ShloMosaic.TcCoe Idealize.SL.Sem Idealize.ShloMosaic.StableHlo
open Cert.KernelIdeal Cert.KernelIdeal.Gen Cert.KernelIdeal.HostFns

variable {F : FTy → Type} [FloatOps F]

/-- The buffers' contents after the stretch, from contents `X`. -/
abbrev out (X : Valuation τ sig (Elt F)) : Valuation τ sig (Elt F) :=
  StableHlo.after hostOps2_4 (StableHlo.after hostOps2_3 (StableHlo.after hostOps2_2 (StableHlo.after hostOps2_1 (StableHlo.after hostOps2 (X)))))

/-- The out-degree scale, as a column. -/
theorem at_v49 (X : Valuation τ sig (Elt F)) :
    out X (Proc.devRef .tc main_v49) = col (scale (X (Proc.devRef .tc main_arg1))) := by
  simp only [out, hostOps2, hostOps2_1, hostOps2_2, hostOps2_3, hostOps2_4]
  after_results_simp <;> rfl

/-- The in-degree scale. -/
theorem at_v48 (X : Valuation τ sig (Elt F)) :
    out X (Proc.devRef .tc main_v48) = scale (X (Proc.devRef .tc main_arg2)) := by
  simp only [out, hostOps2, hostOps2_1, hostOps2_2, hostOps2_3, hostOps2_4]
  after_results_simp <;> rfl

/-- Not written: it holds what it held. -/
theorem at_v31 (X : Valuation τ sig (Elt F)) :
    out X (Proc.devRef .tc main_v31) = X (Proc.devRef .tc main_v31) := by
  simp only [out, hostOps2, hostOps2_1, hostOps2_2, hostOps2_3, hostOps2_4]
  after_results_simp <;> rfl

/-- Not written: it holds what it held. -/
theorem at_arg1 (X : Valuation τ sig (Elt F)) :
    out X (Proc.devRef .tc main_arg1) = X (Proc.devRef .tc main_arg1) := by
  simp only [out, hostOps2, hostOps2_1, hostOps2_2, hostOps2_3, hostOps2_4]
  after_results_simp <;> rfl

/-- Not written: it holds what it held. -/
theorem at_arg2 (X : Valuation τ sig (Elt F)) :
    out X (Proc.devRef .tc main_arg2) = X (Proc.devRef .tc main_arg2) := by
  simp only [out, hostOps2, hostOps2_1, hostOps2_2, hostOps2_3, hostOps2_4]
  after_results_simp <;> rfl

/-- Not written: it holds what it held. -/
theorem at_arg5 (X : Valuation τ sig (Elt F)) :
    out X (Proc.devRef .tc main_arg5) = X (Proc.devRef .tc main_arg5) := by
  simp only [out, hostOps2, hostOps2_1, hostOps2_2, hostOps2_3, hostOps2_4]
  after_results_simp <;> rfl

/-- Not written: it holds what it held. -/
theorem at_arg6 (X : Valuation τ sig (Elt F)) :
    out X (Proc.devRef .tc main_arg6) = X (Proc.devRef .tc main_arg6) := by
  simp only [out, hostOps2, hostOps2_1, hostOps2_2, hostOps2_3, hostOps2_4]
  after_results_simp <;> rfl

/-- Not written: it holds what it held. -/
theorem at_arg7 (X : Valuation τ sig (Elt F)) :
    out X (Proc.devRef .tc main_arg7) = X (Proc.devRef .tc main_arg7) := by
  simp only [out, hostOps2, hostOps2_1, hostOps2_2, hostOps2_3, hostOps2_4]
  after_results_simp <;> rfl

/-- Not written: it holds what it held. -/
theorem at_arg8 (X : Valuation τ sig (Elt F)) :
    out X (Proc.devRef .tc main_arg8) = X (Proc.devRef .tc main_arg8) := by
  simp only [out, hostOps2, hostOps2_1, hostOps2_2, hostOps2_3, hostOps2_4]
  after_results_simp <;> rfl

end Cert.KernelIdeal.HostG2

end
-- ==== Proof.HostG3.lean ====
import proofs.«171964_j2963527434974_1_alg».proof.Proof.Gen.KernelIdeal.Launch
import proofs.«171964_j2963527434974_1_alg».proof.Proof.HostFns
import Idealize.ShloMosaic.Lib.StableHlo.Run

/-!
The host operations between the third and the fourth Pallas call: the neighbour sum of layer 2, the in-degree scale as a column and the bias as a row.
Each statement is at any interpretation of the floats and for ANY contents `X` of the TensorCore's buffers before the stretch: it names what one buffer holds
afterwards as a function of what the buffers it depends on held before. A buffer no operation of the stretch writes
holds what it held.
-/

set_option maxRecDepth 16384
set_option maxHeartbeats 4000000

noncomputable section

namespace Cert.KernelIdeal.HostG3

open Idealize.ShloMosaic Idealize.ShloMosaic.TcCoe Idealize.SL.Sem Idealize.ShloMosaic.StableHlo
open Cert.KernelIdeal Cert.KernelIdeal.Gen Cert.KernelIdeal.HostFns

variable {F : FTy → Type} [FloatOps F]

/-- The buffers' contents after the stretch, from contents `X`. -/
abbrev out (X : Valuation τ sig (Elt F)) : Valuation τ sig (Elt F) :=
  StableHlo.after hostOps3 (X)

/-- The neighbour sum of the transformed features. -/
theorem at_v60 (X : Valuation τ sig (Elt F)) :
    out X (Proc.devRef .tc main_v60) = aggr256 (X (Proc.devRef .tc main_v50)) (X (Proc.devRef .tc main_arg1)) (X (Proc.devRef .tc main_arg2)) := by
  simp only [out, hostOps3]
  after_results_simp <;> rfl

/-- The in-degree scale, as a column. -/
theorem at_v61 (X : Valuation τ sig (Elt F)) :
    out X (Proc.devRef .tc main_v61) = col (X (Proc.devRef .tc main_v48)) := by
  simp only [out, hostOps3]
  after_results_simp <;> rfl

/-- The bias, as a row. -/
theorem at_v62 (X : Valuation τ sig (Elt F)) :
    out X (Proc.devRef .tc main_v62) = row256 (X (Proc.devRef .tc main_arg6)) := by
  simp only [out, hostOps3]
  after_results_simp <;> rfl

/-- Not written: it holds what it held. -/
theorem at_v31 (X : Valuation τ sig (Elt F)) :
    out X (Proc.devRef .tc main_v31) = X (Proc.devRef .tc main_v31) := by
  simp only [out, hostOps3]
  after_results_simp <;> rfl

/-- Not written: it holds what it held. -/
theorem at_arg1 (X : Valuation τ sig (Elt F)) :
    out X (Proc.devRef .tc main_arg1) = X (Proc.devRef .tc main_arg1) := by
  simp only [out, hostOps3]
  after_results_simp <;> rfl

/-- Not written: it holds what it held. -/
theorem at_arg2 (X : Valuation τ sig (Elt F)) :
    out X (Proc.devRef .tc main_arg2) = X (Proc.devRef .tc main_arg2) := by
  simp only [out, hostOps3]
  after_results_simp <;> rfl

/-- Not written: it holds what it held. -/
theorem at_arg7 (X : Valuation τ sig (Elt F)) :
    out X (Proc.devRef .tc main_arg7) = X (Proc.devRef .tc main_arg7) := by
  simp only [out, hostOps3]
  after_results_simp <;> rfl

/-- Not written: it holds what it held. -/
theorem at_arg8 (X : Valuation τ sig (Elt F)) :
    out X (Proc.devRef .tc main_arg8) = X (Proc.devRef .tc main_arg8) := by
  simp only [out, hostOps3]
  after_results_simp <;> rfl

end Cert.KernelIdeal.HostG3

end
-- ==== Proof.HostG4.lean ====
import proofs.«171964_j2963527434974_1_alg».proof.Proof.Gen.KernelIdeal.Launch
import proofs.«171964_j2963527434974_1_alg».proof.Proof.HostFns
import Idealize.ShloMosaic.Lib.StableHlo.Run

/-!
The host operations between the fourth and the fifth Pallas call: the two degree scales, computed again for layer 3.
Each statement is at any interpretation of the floats and for ANY contents `X` of the TensorCore's buffers before the stretch: it names what one buffer holds
afterwards as a function of what the buffers it depends on held before. A buffer no operation of the stretch writes
holds what it held.
-/

set_option maxRecDepth 16384
set_option maxHeartbeats 4000000

noncomputable section

namespace Cert.KernelIdeal.HostG4

open Idealize.ShloMosaic Idealize.ShloMosaic.TcCoe Idealize.SL.Sem Idealize.ShloMosaic.StableHlo
open Cert.KernelIdeal Cert.KernelIdeal.Gen Cert.KernelIdeal.HostFns

variable {F : FTy → Type} [FloatOps F]

/-- The buffers' contents after the stretch, from contents `X`. -/
abbrev out (X : Valuation τ sig (Elt F)) : Valuation τ sig (Elt F) :=
  StableHlo.after hostOps4_4 (StableHlo.after hostOps4_3 (StableHlo.after hostOps4_2 (StableHlo.after hostOps4_1 (StableHlo.after hostOps4 (X)))))

/-- The out-degree scale, as a column. -/
theorem at_v81 (X : Valuation τ sig (Elt F)) :
    out X (Proc.devRef .tc main_v81) = col (scale (X (Proc.devRef .tc main_arg1))) := by
  simp only [out, hostOps4, hostOps4_1, hostOps4_2, hostOps4_3, hostOps4_4]
  after_results_simp <;> rfl

/-- The in-degree scale. -/
theorem at_v80 (X : Valuation τ sig (Elt F)) :
    out X (Proc.devRef .tc main_v80) = scale (X (Proc.devRef .tc main_arg2)) := by
  simp only [out, hostOps4, hostOps4_1, hostOps4_2, hostOps4_3, hostOps4_4]
  after_results_simp <;> rfl

/-- Not written: it holds what it held. -/
theorem at_v31 (X : Valuation τ sig (Elt F)) :
    out X (Proc.devRef .tc main_v31) = X (Proc.devRef .tc main_v31) := by
  simp only [out, hostOps4, hostOps4_1, hostOps4_2, hostOps4_3, hostOps4_4]
  after_results_simp <;> rfl

/-- Not written: it holds what it held. -/
theorem at_v63 (X : Valuation τ sig (Elt F)) :
    out X (Proc.devRef .tc main_v63) = X (Proc.devRef .tc main_v63) := by
  simp only [out, hostOps4, hostOps4_1, hostOps4_2, hostOps4_3, hostOps4_4]
  after_results_simp <;> rfl

/-- Not written: it holds what it held. -/
theorem at_arg1 (X : Valuation τ sig (Elt F)) :
    out X (Proc.devRef .tc main_arg1) = X (Proc.devRef .tc main_arg1) := by
  simp only [out, hostOps4, hostOps4_1, hostOps4_2, hostOps4_3, hostOps4_4]
  after_results_simp <;> rfl

/-- Not written: it holds what it held. -/
theorem at_arg2 (X : Valuation τ sig (Elt F)) :
    out X (Proc.devRef .tc main_arg2) = X (Proc.devRef .tc main_arg2) := by
  simp only [out, hostOps4, hostOps4_1, hostOps4_2, hostOps4_3, hostOps4_4]
  after_results_simp <;> rfl

/-- Not written: it holds what it held. -/
theorem at_arg7 (X : Valuation τ sig (Elt F)) :
    out X (Proc.devRef .tc main_arg7) = X (Proc.devRef .tc main_arg7) := by
  simp only [out, hostOps4, hostOps4_1, hostOps4_2, hostOps4_3, hostOps4_4]
  after_results_simp <;> rfl

/-- Not written: it holds what it held. -/
theorem at_arg8 (X : Valuation τ sig (Elt F)) :
    out X (Proc.devRef .tc main_arg8) = X (Proc.devRef .tc main_arg8) := by
  simp only [out, hostOps4, hostOps4_1, hostOps4_2, hostOps4_3, hostOps4_4]
  after_results_simp <;> rfl

end Cert.KernelIdeal.HostG4

end
-- ==== Proof.HostG5.lean ====
import proofs.«171964_j2963527434974_1_alg».proof.Proof.Gen.KernelIdeal.Launch
import proofs.«171964_j2963527434974_1_alg».proof.Proof.HostFns
import Idealize.ShloMosaic.Lib.StableHlo.Run

/-!
The host operations between the fifth and the sixth Pallas call: the neighbour sum of layer 3, the in-degree scale as a column and the bias as a row.
Each statement is at any interpretation of the floats and for ANY contents `X` of the TensorCore's buffers before the stretch: it names what one buffer holds
afterwards as a function of what the buffers it depends on held before. A buffer no operation of the stretch writes
holds what it held.
-/

set_option maxRecDepth 16384
set_option maxHeartbeats 4000000

noncomputable section

namespace Cert.KernelIdeal.HostG5

open Idealize.ShloMosaic Idealize.ShloMosaic.TcCoe Idealize.SL.Sem Idealize.ShloMosaic.StableHlo
open Cert.KernelIdeal Cert.KernelIdeal.Gen Cert.KernelIdeal.HostFns

variable {F : FTy → Type} [FloatOps F]

/-- The buffers' contents after the stretch, from contents `X`. -/
abbrev out (X : Valuation τ sig (Elt F)) : Valuation τ sig (Elt F) :=
  StableHlo.after hostOps5 (X)

/-- The neighbour sum of the transformed features. -/
theorem at_v92 (X : Valuation τ sig (Elt F)) :
    out X (Proc.devRef .tc main_v92) = aggr128 (X (Proc.devRef .tc main_v82)) (X (Proc.devRef .tc main_arg1)) (X (Proc.devRef .tc main_arg2)) := by
  simp only [out, hostOps5]
  after_results_simp <;> rfl

/-- The in-degree scale, as a column. -/
theorem at_v93 (X : Valuation τ sig (Elt F)) :
    out X (Proc.devRef .tc main_v93) = col (X (Proc.devRef .tc main_v80)) := by
  simp only [out, hostOps5]
  after_results_simp <;> rfl

/-- The bias, as a row. -/
theorem at_v94 (X : Valuation τ sig (Elt F)) :
    out X (Proc.devRef .tc main_v94) = row128 (X (Proc.devRef .tc main_arg8)) := by
  simp only [out, hostOps5]
  after_results_simp <;> rfl

/-- Not written: it holds what it held. -/
theorem at_v31 (X : Valuation τ sig (Elt F)) :
    out X (Proc.devRef .tc main_v31) = X (Proc.devRef .tc main_v31) := by
  simp only [out, hostOps5]
  after_results_simp <;> rfl

/-- Not written: it holds what it held. -/
theorem at_v63 (X : Valuation τ sig (Elt F)) :
    out X (Proc.devRef .tc main_v63) = X (Proc.devRef .tc main_v63) := by
  simp only [out, hostOps5]
  after_results_simp <;> rfl

end Cert.KernelIdeal.HostG5

end
-- ==== Proof.Chain.lean ====
import proofs.«171964_j2963527434974_1_alg».proof.Proof.Gen.KernelIdeal.Frame
import proofs.«171964_j2963527434974_1_alg».proof.Proof.Region0
import proofs.«171964_j2963527434974_1_alg».proof.Proof.Region1
import proofs.«171964_j2963527434974_1_alg».proof.Proof.Region2
import proofs.«171964_j2963527434974_1_alg».proof.Proof.Region3
import proofs.«171964_j2963527434974_1_alg».proof.Proof.Region4
import proofs.«171964_j2963527434974_1_alg».proof.Proof.Region5
import proofs.«171964_j2963527434974_1_alg».proof.Proof.HostG0
import proofs.«171964_j2963527434974_1_alg».proof.Proof.HostG1
import proofs.«171964_j2963527434974_1_alg».proof.Proof.HostG2
import proofs.«171964_j2963527434974_1_alg».proof.Proof.HostG3
import proofs.«171964_j2963527434974_1_alg».proof.Proof.HostG4
import proofs.«171964_j2963527434974_1_alg».proof.Proof.HostG5
import proofs.«171964_j2963527434974_1_alg».proof.Proof.Spec
import proofs.«171964_j2963527434974_1_alg».proof.Proof.HostFns

/-!
The idealized kernel program's three results as functions of its arguments.

The program alternates stretches of host operations with six Pallas calls. Each layer is: the two degree scales (host);
the scaled feature transform (a Pallas call); the neighbour sum, gather then scatter-add (host); scale, bias and — but
in the last layer — cut-off at zero (a Pallas call). The contents of the buffers at the boundaries between these
pieces are followed here, from the launch to the return, one buffer at a time: what a stretch of host operations
leaves (the host lemmas), what a Pallas call leaves in its result array (the tile lemmas), and that everything else
a piece does not write keeps its contents. At the end the three result arrays hold `h0`, `h1`, `h2`: the three layers'
outputs as nested functions of the argument arrays.
-/

set_option maxRecDepth 16384

noncomputable section

namespace Cert.KernelIdeal.Chain

open Idealize.ShloMosaic Idealize.ShloMosaic.TcCoe Idealize.SL.Sem
open Idealize.ShloMosaic.Pipeline (Dat Cfg Window)
open Cert.KernelIdeal Cert.KernelIdeal.Gen Cert.KernelIdeal.HostFns Cert.Gcn

variable (m : (ℓ : Loc nD τ sig) → Buf (Elt Ideal) ℓ) (ρ : Dev nD → PrngReg) (c : Dev nD)

/-! ## The layers, as functions of the arguments -/

/-- The edges' sources. -/
abbrev src : Edges Ideal := m ((c : Thread nD τ).loc main_arg1)
/-- The edges' destinations. -/
abbrev dst : Edges Ideal := m ((c : Thread nD τ).loc main_arg2)
/-- Layer 1's transformed features. -/
def t0 : FVec Ideal S50000x256 .f32 := mm256 (m ((c : Thread nD τ).loc main_arg0)) (col (F := Ideal) (scale (F := Ideal) (src m c))) (m ((c : Thread nD τ).loc main_arg3))
/-- Layer 1's output. -/
def h0 : FVec Ideal S50000x256 .f32 := cbRelu256 (aggr256 (F := Ideal) (t0 m c) (src m c) (dst m c)) (col (F := Ideal) (scale (F := Ideal) (dst m c))) (row256 (F := Ideal) (m ((c : Thread nD τ).loc main_arg4)))
/-- Layer 2's transformed features. -/
def t1 : FVec Ideal S50000x256 .f32 := mm256 (h0 m c) (col (F := Ideal) (scale (F := Ideal) (src m c))) (m ((c : Thread nD τ).loc main_arg5))
/-- Layer 2's output. -/
def h1 : FVec Ideal S50000x256 .f32 := cbRelu256 (aggr256 (F := Ideal) (t1 m c) (src m c) (dst m c)) (col (F := Ideal) (scale (F := Ideal) (dst m c))) (row256 (F := Ideal) (m ((c : Thread nD τ).loc main_arg6)))
/-- Layer 3's transformed features. -/
def t2 : FVec Ideal S50000x128 .f32 := mm128 (h1 m c) (col (F := Ideal) (scale (F := Ideal) (src m c))) (m ((c : Thread nD τ).loc main_arg7))
/-- Layer 3's output. -/
def h2 : FVec Ideal S50000x128 .f32 := cbLin128 (aggr128 (F := Ideal) (t2 m c) (src m c) (dst m c)) (col (F := Ideal) (scale (F := Ideal) (dst m c))) (row128 (F := Ideal) (m ((c : Thread nD τ).loc main_arg8)))

/-! ## Before the first call -/

theorem B5_v17 : W5 m ρ c (Proc.devRef .tc main_v17) = col (F := Ideal) (scale (F := Ideal) (src m c)) :=
  HostG0.at_v17 (W0 m ρ c)

theorem B5_v16 : W5 m ρ c (Proc.devRef .tc main_v16) = scale (F := Ideal) (dst m c) :=
  HostG0.at_v16 (W0 m ρ c)

theorem B5_arg0 : W5 m ρ c (Proc.devRef .tc main_arg0) = (m ((c : Thread nD τ).loc main_arg0)) :=
  HostG0.at_arg0 (W0 m ρ c)

theorem B5_arg1 : W5 m ρ c (Proc.devRef .tc main_arg1) = (m ((c : Thread nD τ).loc main_arg1)) :=
  HostG0.at_arg1 (W0 m ρ c)

theorem B5_arg2 : W5 m ρ c (Proc.devRef .tc main_arg2) = (m ((c : Thread nD τ).loc main_arg2)) :=
  HostG0.at_arg2 (W0 m ρ c)

theorem B5_arg3 : W5 m ρ c (Proc.devRef .tc main_arg3) = (m ((c : Thread nD τ).loc main_arg3)) :=
  HostG0.at_arg3 (W0 m ρ c)

theorem B5_arg4 : W5 m ρ c (Proc.devRef .tc main_arg4) = (m ((c : Thread nD τ).loc main_arg4)) :=
  HostG0.at_arg4 (W0 m ρ c)

theorem B5_arg5 : W5 m ρ c (Proc.devRef .tc main_arg5) = (m ((c : Thread nD τ).loc main_arg5)) :=
  HostG0.at_arg5 (W0 m ρ c)

theorem B5_arg6 : W5 m ρ c (Proc.devRef .tc main_arg6) = (m ((c : Thread nD τ).loc main_arg6)) :=
  HostG0.at_arg6 (W0 m ρ c)

theorem B5_arg7 : W5 m ρ c (Proc.devRef .tc main_arg7) = (m ((c : Thread nD τ).loc main_arg7)) :=
  HostG0.at_arg7 (W0 m ρ c)

theorem B5_arg8 : W5 m ρ c (Proc.devRef .tc main_arg8) = (m ((c : Thread nD τ).loc main_arg8)) :=
  HostG0.at_arg8 (W0 m ρ c)

/-! ## After the first call (the scaled feature transform of layer 1) -/

theorem B6_v18 : W6 m ρ c (Proc.devRef .tc main_v18) = (t0 m c) := by
  refine (W6_arr m ρ c 3).trans ((Region0.result (V5 m ρ) c).trans ?_)
  show mm256 (W5 m ρ c (Proc.devRef .tc main_arg0)) (W5 m ρ c (Proc.devRef .tc main_v17)) (W5 m ρ c (Proc.devRef .tc main_arg3)) = _
  rw [B5_arg0, B5_v17, B5_arg3]
  rfl

theorem B6_v16 : W6 m ρ c (Proc.devRef .tc main_v16) = scale (F := Ideal) (dst m c) :=
  (W6_of_ne m ρ c main_v16 (by decide)).trans (B5_v16 m ρ c)

theorem B6_arg1 : W6 m ρ c (Proc.devRef .tc main_arg1) = (m ((c : Thread nD τ).loc main_arg1)) :=
  (W6_of_ne m ρ c main_arg1 (by decide)).trans (B5_arg1 m ρ c)

theorem B6_arg2 : W6 m ρ c (Proc.devRef .tc main_arg2) = (m ((c : Thread nD τ).loc main_arg2)) :=
  (W6_of_ne m ρ c main_arg2 (by decide)).trans (B5_arg2 m ρ c)

theorem B6_arg4 : W6 m ρ c (Proc.devRef .tc main_arg4) = (m ((c : Thread nD τ).loc main_arg4)) :=
  (W6_of_ne m ρ c main_arg4 (by decide)).trans (B5_arg4 m ρ c)

theorem B6_arg5 : W6 m ρ c (Proc.devRef .tc main_arg5) = (m ((c : Thread nD τ).loc main_arg5)) :=
  (W6_of_ne m ρ c main_arg5 (by decide)).trans (B5_arg5 m ρ c)

theorem B6_arg6 : W6 m ρ c (Proc.devRef .tc main_arg6) = (m ((c : Thread nD τ).loc main_arg6)) :=
  (W6_of_ne m ρ c main_arg6 (by decide)).trans (B5_arg6 m ρ c)

theorem B6_arg7 : W6 m ρ c (Proc.devRef .tc main_arg7) = (m ((c : Thread nD τ).loc main_arg7)) :=
  (W6_of_ne m ρ c main_arg7 (by decide)).trans (B5_arg7 m ρ c)

theorem B6_arg8 : W6 m ρ c (Proc.devRef .tc main_arg8) = (m ((c : Thread nD τ).loc main_arg8)) :=
  (W6_of_ne m ρ c main_arg8 (by decide)).trans (B5_arg8 m ρ c)

/-! ## Before the second call -/

theorem B7_v28 : W7 m ρ c (Proc.devRef .tc main_v28) = (aggr256 (F := Ideal) (t0 m c) (src m c) (dst m c)) := by
  refine (HostG1.at_v28 (W6 m ρ c)).trans ?_
  rw [B6_v18, B6_arg1, B6_arg2] <;> rfl

theorem B7_v29 : W7 m ρ c (Proc.devRef .tc main_v29) = col (F := Ideal) (scale (F := Ideal) (dst m c)) := by
  refine (HostG1.at_v29 (W6 m ρ c)).trans ?_
  rw [B6_v16] <;> rfl

theorem B7_v30 : W7 m ρ c (Proc.devRef .tc main_v30) = row256 (F := Ideal) (m ((c : Thread nD τ).loc main_arg4)) := by
  refine (HostG1.at_v30 (W6 m ρ c)).trans ?_
  rw [B6_arg4] <;> rfl

theorem B7_arg1 : W7 m ρ c (Proc.devRef .tc main_arg1) = (m ((c : Thread nD τ).loc main_arg1)) := by
  refine (HostG1.at_arg1 (W6 m ρ c)).trans ?_
  rw [B6_arg1] <;> rfl

theorem B7_arg2 : W7 m ρ c (Proc.devRef .tc main_arg2) = (m ((c : Thread nD τ).loc main_arg2)) := by
  refine (HostG1.at_arg2 (W6 m ρ c)).trans ?_
  rw [B6_arg2] <;> rfl

theorem B7_arg5 : W7 m ρ c (Proc.devRef .tc main_arg5) = (m ((c : Thread nD τ).loc main_arg5)) := by
  refine (HostG1.at_arg5 (W6 m ρ c)).trans ?_
  rw [B6_arg5] <;> rfl

theorem B7_arg6 : W7 m ρ c (Proc.devRef .tc main_arg6) = (m ((c : Thread nD τ).loc main_arg6)) := by
  refine (HostG1.at_arg6 (W6 m ρ c)).trans ?_
  rw [B6_arg6] <;> rfl

theorem B7_arg7 : W7 m ρ c (Proc.devRef .tc main_arg7) = (m ((c : Thread nD τ).loc main_arg7)) := by
  refine (HostG1.at_arg7 (W6 m ρ c)).trans ?_
  rw [B6_arg7] <;> rfl

theorem B7_arg8 : W7 m ρ c (Proc.devRef .tc main_arg8) = (m ((c : Thread nD τ).loc main_arg8)) := by
  refine (HostG1.at_arg8 (W6 m ρ c)).trans ?_
  rw [B6_arg8] <;> rfl

/-! ## After the second call: the first layer's output -/

theorem B8_v31 : W8 m ρ c (Proc.devRef .tc main_v31) = (h0 m c) := by
  refine (W8_arr m ρ c 3).trans ((Region1.result (V7 m ρ) c).trans ?_)
  show cbRelu256 (W7 m ρ c (Proc.devRef .tc main_v28)) (W7 m ρ c (Proc.devRef .tc main_v29)) (W7 m ρ c (Proc.devRef .tc main_v30)) = _
  rw [B7_v28, B7_v29, B7_v30]
  rfl

theorem B8_arg1 : W8 m ρ c (Proc.devRef .tc main_arg1) = (m ((c : Thread nD τ).loc main_arg1)) :=
  (W8_of_ne m ρ c main_arg1 (by decide)).trans (B7_arg1 m ρ c)

theorem B8_arg2 : W8 m ρ c (Proc.devRef .tc main_arg2) = (m ((c : Thread nD τ).loc main_arg2)) :=
  (W8_of_ne m ρ c main_arg2 (by decide)).trans (B7_arg2 m ρ c)

theorem B8_arg5 : W8 m ρ c (Proc.devRef .tc main_arg5) = (m ((c : Thread nD τ).loc main_arg5)) :=
  (W8_of_ne m ρ c main_arg5 (by decide)).trans (B7_arg5 m ρ c)

theorem B8_arg6 : W8 m ρ c (Proc.devRef .tc main_arg6) = (m ((c : Thread nD τ).loc main_arg6)) :=
  (W8_of_ne m ρ c main_arg6 (by decide)).trans (B7_arg6 m ρ c)

theorem B8_arg7 : W8 m ρ c (Proc.devRef .tc main_arg7) = (m ((c : Thread nD τ).loc main_arg7)) :=
  (W8_of_ne m ρ c main_arg7 (by decide)).trans (B7_arg7 m ρ c)

theorem B8_arg8 : W8 m ρ c (Proc.devRef .tc main_arg8) = (m ((c : Thread nD τ).loc main_arg8)) :=
  (W8_of_ne m ρ c main_arg8 (by decide)).trans (B7_arg8 m ρ c)

/-! ## Before the third call -/

theorem B13_v49 : W13 m ρ c (Proc.devRef .tc main_v49) = col (F := Ideal) (scale (F := Ideal) (src m c)) := by
  refine (HostG2.at_v49 (W8 m ρ c)).trans ?_
  rw [B8_arg1] <;> rfl

theorem B13_v48 : W13 m ρ c (Proc.devRef .tc main_v48) = scale (F := Ideal) (dst m c) := by
  refine (HostG2.at_v48 (W8 m ρ c)).trans ?_
  rw [B8_arg2] <;> rfl

theorem B13_v31 : W13 m ρ c (Proc.devRef .tc main_v31) = (h0 m c) := by
  refine (HostG2.at_v31 (W8 m ρ c)).trans ?_
  rw [B8_v31] <;> rfl

theorem B13_arg1 : W13 m ρ c (Proc.devRef .tc main_arg1) = (m ((c : Thread nD τ).loc main_arg1)) := by
  refine (HostG2.at_arg1 (W8 m ρ c)).trans ?_
  rw [B8_arg1] <;> rfl

theorem B13_arg2 : W13 m ρ c (Proc.devRef .tc main_arg2) = (m ((c : Thread nD τ).loc main_arg2)) := by
  refine (HostG2.at_arg2 (W8 m ρ c)).trans ?_
  rw [B8_arg2] <;> rfl

theorem B13_arg5 : W13 m ρ c (Proc.devRef .tc main_arg5) = (m ((c : Thread nD τ).loc main_arg5)) := by
  refine (HostG2.at_arg5 (W8 m ρ c)).trans ?_
  rw [B8_arg5] <;> rfl

theorem B13_arg6 : W13 m ρ c (Proc.devRef .tc main_arg6) = (m ((c : Thread nD τ).loc main_arg6)) := by
  refine (HostG2.at_arg6 (W8 m ρ c)).trans ?_
  rw [B8_arg6] <;> rfl

theorem B13_arg7 : W13 m ρ c (Proc.devRef .tc main_arg7) = (m ((c : Thread nD τ).loc main_arg7)) := by
  refine (HostG2.at_arg7 (W8 m ρ c)).trans ?_
  rw [B8_arg7] <;> rfl

theorem B13_arg8 : W13 m ρ c (Proc.devRef .tc main_arg8) = (m ((c : Thread nD τ).loc main_arg8)) := by
  refine (HostG2.at_arg8 (W8 m ρ c)).trans ?_
  rw [B8_arg8] <;> rfl

/-! ## After the third call -/

theorem B14_v50 : W14 m ρ c (Proc.devRef .tc main_v50) = (t1 m c) := by
  refine (W14_arr m ρ c 3).trans ((Region2.result (V13 m ρ) c).trans ?_)
  show mm256 (W13 m ρ c (Proc.devRef .tc main_v31)) (W13 m ρ c (Proc.devRef .tc main_v49)) (W13 m ρ c (Proc.devRef .tc main_arg5)) = _
  rw [B13_v31, B13_v49, B13_arg5]
  rfl

theorem B14_v31 : W14 m ρ c (Proc.devRef .tc main_v31) = (h0 m c) :=
  (W14_arr m ρ c 0).trans (((dat2 (V13 m ρ) c).arrAt_in 0 rfl _).trans ((A_eq2 (V13 m ρ) c 0).trans (B13_v31 m ρ c)))

theorem B14_v48 : W14 m ρ c (Proc.devRef .tc main_v48) = scale (F := Ideal) (dst m c) :=
  (W14_of_ne m ρ c main_v48 (by decide)).trans (B13_v48 m ρ c)

theorem B14_arg1 : W14 m ρ c (Proc.devRef .tc main_arg1) = (m ((c : Thread nD τ).loc main_arg1)) :=
  (W14_of_ne m ρ c main_arg1 (by decide)).trans (B13_arg1 m ρ c)

theorem B14_arg2 : W14 m ρ c (Proc.devRef .tc main_arg2) = (m ((c : Thread nD τ).loc main_arg2)) :=
  (W14_of_ne m ρ c main_arg2 (by decide)).trans (B13_arg2 m ρ c)

theorem B14_arg6 : W14 m ρ c (Proc.devRef .tc main_arg6) = (m ((c : Thread nD τ).loc main_arg6)) :=
  (W14_of_ne m ρ c main_arg6 (by decide)).trans (B13_arg6 m ρ c)

theorem B14_arg7 : W14 m ρ c (Proc.devRef .tc main_arg7) = (m ((c : Thread nD τ).loc main_arg7)) :=
  (W14_of_ne m ρ c main_arg7 (by decide)).trans (B13_arg7 m ρ c)

theorem B14_arg8 : W14 m ρ c (Proc.devRef .tc main_arg8) = (m ((c : Thread nD τ).loc main_arg8)) :=
  (W14_of_ne m ρ c main_arg8 (by decide)).trans (B13_arg8 m ρ c)

/-! ## Before the fourth call -/

theorem B15_v60 : W15 m ρ c (Proc.devRef .tc main_v60) = (aggr256 (F := Ideal) (t1 m c) (src m c) (dst m c)) := by
  refine (HostG3.at_v60 (W14 m ρ c)).trans ?_
  rw [B14_v50, B14_arg1, B14_arg2] <;> rfl

theorem B15_v61 : W15 m ρ c (Proc.devRef .tc main_v61) = col (F := Ideal) (scale (F := Ideal) (dst m c)) := by
  refine (HostG3.at_v61 (W14 m ρ c)).trans ?_
  rw [B14_v48] <;> rfl

theorem B15_v62 : W15 m ρ c (Proc.devRef .tc main_v62) = row256 (F := Ideal) (m ((c : Thread nD τ).loc main_arg6)) := by
  refine (HostG3.at_v62 (W14 m ρ c)).trans ?_
  rw [B14_arg6] <;> rfl

theorem B15_v31 : W15 m ρ c (Proc.devRef .tc main_v31) = (h0 m c) := by
  refine (HostG3.at_v31 (W14 m ρ c)).trans ?_
  rw [B14_v31] <;> rfl

theorem B15_arg1 : W15 m ρ c (Proc.devRef .tc main_arg1) = (m ((c : Thread nD τ).loc main_arg1)) := by
  refine (HostG3.at_arg1 (W14 m ρ c)).trans ?_
  rw [B14_arg1] <;> rfl

theorem B15_arg2 : W15 m ρ c (Proc.devRef .tc main_arg2) = (m ((c : Thread nD τ).loc main_arg2)) := by
  refine (HostG3.at_arg2 (W14 m ρ c)).trans ?_
  rw [B14_arg2] <;> rfl

theorem B15_arg7 : W15 m ρ c (Proc.devRef .tc main_arg7) = (m ((c : Thread nD τ).loc main_arg7)) := by
  refine (HostG3.at_arg7 (W14 m ρ c)).trans ?_
  rw [B14_arg7] <;> rfl

theorem B15_arg8 : W15 m ρ c (Proc.devRef .tc main_arg8) = (m ((c : Thread nD τ).loc main_arg8)) := by
  refine (HostG3.at_arg8 (W14 m ρ c)).trans ?_
  rw [B14_arg8] <;> rfl

/-! ## After the fourth call: the second layer's output -/

theorem B16_v63 : W16 m ρ c (Proc.devRef .tc main_v63) = (h1 m c) := by
  refine (W16_arr m ρ c 3).trans ((Region3.result (V15 m ρ) c).trans ?_)
  show cbRelu256 (W15 m ρ c (Proc.devRef .tc main_v60)) (W15 m ρ c (Proc.devRef .tc main_v61)) (W15 m ρ c (Proc.devRef .tc main_v62)) = _
  rw [B15_v60, B15_v61, B15_v62]
  rfl

theorem B16_v31 : W16 m ρ c (Proc.devRef .tc main_v31) = (h0 m c) :=
  (W16_of_ne m ρ c main_v31 (by decide)).trans (B15_v31 m ρ c)

theorem B16_arg1 : W16 m ρ c (Proc.devRef .tc main_arg1) = (m ((c : Thread nD τ).loc main_arg1)) :=
  (W16_of_ne m ρ c main_arg1 (by decide)).trans (B15_arg1 m ρ c)

theorem B16_arg2 : W16 m ρ c (Proc.devRef .tc main_arg2) = (m ((c : Thread nD τ).loc main_arg2)) :=
  (W16_of_ne m ρ c main_arg2 (by decide)).trans (B15_arg2 m ρ c)

theorem B16_arg7 : W16 m ρ c (Proc.devRef .tc main_arg7) = (m ((c : Thread nD τ).loc main_arg7)) :=
  (W16_of_ne m ρ c main_arg7 (by decide)).trans (B15_arg7 m ρ c)

theorem B16_arg8 : W16 m ρ c (Proc.devRef .tc main_arg8) = (m ((c : Thread nD τ).loc main_arg8)) :=
  (W16_of_ne m ρ c main_arg8 (by decide)).trans (B15_arg8 m ρ c)

/-! ## Before the fifth call -/

theorem B21_v81 : W21 m ρ c (Proc.devRef .tc main_v81) = col (F := Ideal) (scale (F := Ideal) (src m c)) := by
  refine (HostG4.at_v81 (W16 m ρ c)).trans ?_
  rw [B16_arg1] <;> rfl

theorem B21_v80 : W21 m ρ c (Proc.devRef .tc main_v80) = scale (F := Ideal) (dst m c) := by
  refine (HostG4.at_v80 (W16 m ρ c)).trans ?_
  rw [B16_arg2] <;> rfl

theorem B21_v31 : W21 m ρ c (Proc.devRef .tc main_v31) = (h0 m c) := by
  refine (HostG4.at_v31 (W16 m ρ c)).trans ?_
  rw [B16_v31] <;> rfl

theorem B21_v63 : W21 m ρ c (Proc.devRef .tc main_v63) = (h1 m c) := by
  refine (HostG4.at_v63 (W16 m ρ c)).trans ?_
  rw [B16_v63] <;> rfl

theorem B21_arg1 : W21 m ρ c (Proc.devRef .tc main_arg1) = (m ((c : Thread nD τ).loc main_arg1)) := by
  refine (HostG4.at_arg1 (W16 m ρ c)).trans ?_
  rw [B16_arg1] <;> rfl

theorem B21_arg2 : W21 m ρ c (Proc.devRef .tc main_arg2) = (m ((c : Thread nD τ).loc main_arg2)) := by
  refine (HostG4.at_arg2 (W16 m ρ c)).trans ?_
  rw [B16_arg2] <;> rfl

theorem B21_arg7 : W21 m ρ c (Proc.devRef .tc main_arg7) = (m ((c : Thread nD τ).loc main_arg7)) := by
  refine (HostG4.at_arg7 (W16 m ρ c)).trans ?_
  rw [B16_arg7] <;> rfl

theorem B21_arg8 : W21 m ρ c (Proc.devRef .tc main_arg8) = (m ((c : Thread nD τ).loc main_arg8)) := by
  refine (HostG4.at_arg8 (W16 m ρ c)).trans ?_
  rw [B16_arg8] <;> rfl

/-! ## After the fifth call -/

theorem B22_v82 : W22 m ρ c (Proc.devRef .tc main_v82) = (t2 m c) := by
  refine (W22_arr m ρ c 3).trans ((Region4.result (V21 m ρ) c).trans ?_)
  show mm128 (W21 m ρ c (Proc.devRef .tc main_v63)) (W21 m ρ c (Proc.devRef .tc main_v81)) (W21 m ρ c (Proc.devRef .tc main_arg7)) = _
  rw [B21_v63, B21_v81, B21_arg7]
  rfl

theorem B22_v63 : W22 m ρ c (Proc.devRef .tc main_v63) = (h1 m c) :=
  (W22_arr m ρ c 0).trans (((dat4 (V21 m ρ) c).arrAt_in 0 rfl _).trans ((A_eq4 (V21 m ρ) c 0).trans (B21_v63 m ρ c)))

theorem B22_v31 : W22 m ρ c (Proc.devRef .tc main_v31) = (h0 m c) :=
  (W22_of_ne m ρ c main_v31 (by decide)).trans (B21_v31 m ρ c)

theorem B22_v80 : W22 m ρ c (Proc.devRef .tc main_v80) = scale (F := Ideal) (dst m c) :=
  (W22_of_ne m ρ c main_v80 (by decide)).trans (B21_v80 m ρ c)

theorem B22_arg1 : W22 m ρ c (Proc.devRef .tc main_arg1) = (m ((c : Thread nD τ).loc main_arg1)) :=
  (W22_of_ne m ρ c main_arg1 (by decide)).trans (B21_arg1 m ρ c)

theorem B22_arg2 : W22 m ρ c (Proc.devRef .tc main_arg2) = (m ((c : Thread nD τ).loc main_arg2)) :=
  (W22_of_ne m ρ c main_arg2 (by decide)).trans (B21_arg2 m ρ c)

theorem B22_arg8 : W22 m ρ c (Proc.devRef .tc main_arg8) = (m ((c : Thread nD τ).loc main_arg8)) :=
  (W22_of_ne m ρ c main_arg8 (by decide)).trans (B21_arg8 m ρ c)

/-! ## Before the sixth call -/

theorem B23_v92 : W23 m ρ c (Proc.devRef .tc main_v92) = (aggr128 (F := Ideal) (t2 m c) (src m c) (dst m c)) := by
  refine (HostG5.at_v92 (W22 m ρ c)).trans ?_
  rw [B22_v82, B22_arg1, B22_arg2] <;> rfl

theorem B23_v93 : W23 m ρ c (Proc.devRef .tc main_v93) = col (F := Ideal) (scale (F := Ideal) (dst m c)) := by
  refine (HostG5.at_v93 (W22 m ρ c)).trans ?_
  rw [B22_v80] <;> rfl

theorem B23_v94 : W23 m ρ c (Proc.devRef .tc main_v94) = row128 (F := Ideal) (m ((c : Thread nD τ).loc main_arg8)) := by
  refine (HostG5.at_v94 (W22 m ρ c)).trans ?_
  rw [B22_arg8] <;> rfl

theorem B23_v31 : W23 m ρ c (Proc.devRef .tc main_v31) = (h0 m c) := by
  refine (HostG5.at_v31 (W22 m ρ c)).trans ?_
  rw [B22_v31] <;> rfl

theorem B23_v63 : W23 m ρ c (Proc.devRef .tc main_v63) = (h1 m c) := by
  refine (HostG5.at_v63 (W22 m ρ c)).trans ?_
  rw [B22_v63] <;> rfl

/-! ## After the sixth call: the three results -/

theorem B24_v95 : W24 m ρ c (Proc.devRef .tc main_v95) = (h2 m c) := by
  refine (W24_arr m ρ c 3).trans ((Region5.result (V23 m ρ) c).trans ?_)
  show cbLin128 (W23 m ρ c (Proc.devRef .tc main_v92)) (W23 m ρ c (Proc.devRef .tc main_v93)) (W23 m ρ c (Proc.devRef .tc main_v94)) = _
  rw [B23_v92, B23_v93, B23_v94]
  rfl

theorem B24_v31 : W24 m ρ c (Proc.devRef .tc main_v31) = (h0 m c) :=
  (W24_of_ne m ρ c main_v31 (by decide)).trans (B23_v31 m ρ c)

theorem B24_v63 : W24 m ρ c (Proc.devRef .tc main_v63) = (h1 m c) :=
  (W24_of_ne m ρ c main_v63 (by decide)).trans (B23_v63 m ρ c)

end Cert.KernelIdeal.Chain

end
-- ==== Proof.Layout.lean ====
import Idealize.ShloMosaic.Lib.ValueIdx
import Idealize.ShloMosaic.PureOps.Ideal

/-!
A vector laid out as a matrix with one column, or with one row: the form in which the degree scales and the biases
reach the two dense steps of a layer.
-/

noncomputable section

namespace Cert.Gcn

open Idealize.ShloMosaic Idealize.ShloMosaic.ValueIdx

/-- A vector over the nodes laid out as a one-column matrix. -/
def colOf (n : (⟨1, ![50000]⟩ : Shape).Idx → EReal) : (⟨2, ![50000, 1]⟩ : Shape).Idx → EReal := fun i => n (ix1 (i 0))

/-- A bias vector laid out as a one-row matrix (256 features). -/
def rowOf256 (b : (⟨1, ![256]⟩ : Shape).Idx → EReal) : (⟨2, ![1, 256]⟩ : Shape).Idx → EReal := fun i => b (ix1 (i 1))

/-- A bias vector laid out as a one-row matrix (128 features). -/
def rowOf128 (b : (⟨1, ![128]⟩ : Shape).Idx → EReal) : (⟨2, ![1, 128]⟩ : Shape).Idx → EReal := fun i => b (ix1 (i 1))

end Cert.Gcn

end
-- ==== Proof.RefLayer.lean ====
import proofs.«171964_j2963527434974_1_alg».proof.Proof.Gen.ReferenceIdeal
import proofs.«171964_j2963527434974_1_alg».proof.Proof.Spec
import proofs.«171964_j2963527434974_1_alg».proof.Proof.Layout
import Idealize.ShloMosaic.Lib.ValueIdx
import Idealize.ShloMosaic.Lib.Pipeline.Value
import Idealize.ShloMosaic.PureOps.Ideal.Laws

/-!
The reference's two dense steps, read index by index over the extended reals.

The reference multiplies every row of the features by its node's out-degree scale (a broadcast of the scale vector along
the rows), then takes the matrix product with the weights: entry `(r, q)` is `∑ k, (x r k · s r) · w k q`, the scaled
feature transform. After the neighbour sum it multiplies by the in-degree scale, adds the bias (a broadcast down the
rows) and, in the layers with an activation, takes the maximum with zero.
-/

noncomputable section

namespace Cert.ReferenceIdeal.Layer

open Idealize.ShloMosaic Idealize.ShloMosaic.ValueIdx Cert.ReferenceIdeal Cert.ReferenceIdeal.Gen Cert.Gcn

/-! ## The broadcasts, read at an index -/

/-- The scale vector spread along the rows of a 50000 × 256 matrix: entry `(r, k)` is node `r`'s scale. -/
theorem scale_bcast256 (n : FVec Ideal S50000 .f32) (r : Fin 50000) (k : Fin 256) :
    broadcastInDim S50000x256 ![0, 1] bcast_S50000x1_S50000x256_0_1 (broadcastInDim S50000x1 ![0] bcast_S50000_S50000x1_0 n) (ix2 r k)
      = n (ix1 r) := by
  rw [broadcastInDim_apply _ _ _ (ix2 r k) (ix2 r 0) (fun a => by
    match a with
    | ⟨0, _⟩ => rfl
    | ⟨1, _⟩ => rfl)]
  exact broadcastInDim_apply _ _ n (ix2 r 0) (ix1 r) (fun a => by
    match a with
    | ⟨0, _⟩ => rfl)

/-- The same along the rows of a 50000 × 128 matrix. -/
theorem scale_bcast128 (n : FVec Ideal S50000 .f32) (r : Fin 50000) (k : Fin 128) :
    broadcastInDim S50000x128 ![0, 1] bcast_S50000x1_S50000x128_0_1 (broadcastInDim S50000x1 ![0] bcast_S50000_S50000x1_0 n) (ix2 r k)
      = n (ix1 r) := by
  rw [broadcastInDim_apply _ _ _ (ix2 r k) (ix2 r 0) (fun a => by
    match a with
    | ⟨0, _⟩ => rfl
    | ⟨1, _⟩ => rfl)]
  exact broadcastInDim_apply _ _ n (ix2 r 0) (ix1 r) (fun a => by
    match a with
    | ⟨0, _⟩ => rfl)

/-- The bias spread down the rows of a 50000 × 256 matrix: entry `(r, q)` is the bias of column `q`. -/
theorem bias_bcast256 (b : FVec Ideal S256 .f32) (r : Fin 50000) (q : Fin 256) :
    broadcastInDim S50000x256 ![0, 1] bcast_S1x256_S50000x256_0_1 (broadcastInDim S1x256 ![1] bcast_S256_S1x256_1 b) (ix2 r q)
      = b (ix1 q) := by
  rw [broadcastInDim_apply _ _ _ (ix2 r q) (ix2 0 q) (fun a => by
    match a with
    | ⟨0, _⟩ => rfl
    | ⟨1, _⟩ => rfl)]
  exact broadcastInDim_apply _ _ b (ix2 0 q) (ix1 q) (fun a => by
    match a with
    | ⟨0, _⟩ => rfl)

/-- The bias spread down the rows of a 50000 × 128 matrix. -/
theorem bias_bcast128 (b : FVec Ideal S128 .f32) (r : Fin 50000) (q : Fin 128) :
    broadcastInDim S50000x128 ![0, 1] bcast_S1x128_S50000x128_0_1 (broadcastInDim S1x128 ![1] bcast_S128_S1x128_1 b) (ix2 r q)
      = b (ix1 q) := by
  rw [broadcastInDim_apply _ _ _ (ix2 r q) (ix2 0 q) (fun a => by
    match a with
    | ⟨0, _⟩ => rfl
    | ⟨1, _⟩ => rfl)]
  exact broadcastInDim_apply _ _ b (ix2 0 q) (ix1 q) (fun a => by
    match a with
    | ⟨0, _⟩ => rfl)

/-- The zero the activation compares with, spread over the matrix. -/
theorem zero_bcast256 (r : Fin 50000) (q : Fin 256) :
    broadcastInDim S50000x256 ![] bcast_S_S50000x256 (constant (F := Ideal) S_ .f32 0x00000000#32) (ix2 r q)
      = Ideal.ofBits .f32 0x00000000#32 :=
  broadcastInDim_apply _ _ _ (ix2 r q) (fun a => a.elim0) (fun a => a.elim0)

/-! ## The host's feature transform, 256 features to 256 -/

/-- The left operand's row coordinate is the output's row. -/
theorem lhs256_0 (i : S50000x256.Idx) (r : dot_S50000x256_S256x256_S50000x256_1_0_0_1_n_n.contr.Idx) : (dot_S50000x256_S256x256_S50000x256_1_0_0_1_n_n.lhsIdx i r 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
/-- The left operand's column coordinate is the contraction index. -/
theorem lhs256_1 (i : S50000x256.Idx) (r : dot_S50000x256_S256x256_S50000x256_1_0_0_1_n_n.contr.Idx) : (dot_S50000x256_S256x256_S50000x256_1_0_0_1_n_n.lhsIdx i r 1).val = (r ⟨0, by decide⟩).val :=
  dot_S50000x256_S256x256_S50000x256_1_0_0_1_n_n.lhsIdx_val_of_single rfl i r
/-- The right operand's row coordinate is the contraction index. -/
theorem rhs256_0 (i : S50000x256.Idx) (r : dot_S50000x256_S256x256_S50000x256_1_0_0_1_n_n.contr.Idx) : (dot_S50000x256_S256x256_S50000x256_1_0_0_1_n_n.rhsIdx i r 0).val = (r ⟨0, by decide⟩).val :=
  dot_S50000x256_S256x256_S50000x256_1_0_0_1_n_n.rhsIdx_val_of_single rfl i r
/-- The right operand's column coordinate is the output's column. -/
theorem rhs256_1 (i : S50000x256.Idx) (r : dot_S50000x256_S256x256_S50000x256_1_0_0_1_n_n.contr.Idx) : (dot_S50000x256_S256x256_S50000x256_1_0_0_1_n_n.rhsIdx i r 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

theorem lhs256_ix (p : Fin 50000) (q : Fin 256) (k : Fin 256) :
    dot_S50000x256_S256x256_S50000x256_1_0_0_1_n_n.lhsIdx (ix2 p q) ((contrEquiv1 dot_S50000x256_S256x256_S50000x256_1_0_0_1_n_n 256 rfl rfl).symm k) = ix2 p k := by
  have hk := contrEquiv1_symm_val dot_S50000x256_S256x256_S50000x256_1_0_0_1_n_n 256 rfl rfl k
  exact funext fun a => Fin.ext (by
    match a with
    | ⟨0, _⟩ => exact lhs256_0 _ _
    | ⟨1, _⟩ => exact (lhs256_1 _ _).trans hk)

theorem rhs256_ix (p : Fin 50000) (q : Fin 256) (k : Fin 256) :
    dot_S50000x256_S256x256_S50000x256_1_0_0_1_n_n.rhsIdx (ix2 p q) ((contrEquiv1 dot_S50000x256_S256x256_S50000x256_1_0_0_1_n_n 256 rfl rfl).symm k) = ix2 k q := by
  have hk := contrEquiv1_symm_val dot_S50000x256_S256x256_S50000x256_1_0_0_1_n_n 256 rfl rfl k
  exact funext fun a => Fin.ext (by
    match a with
    | ⟨0, _⟩ => exact (rhs256_0 _ _).trans hk
    | ⟨1, _⟩ => exact rhs256_1 _ _)

/-- The host's product of the row-scaled features with the weights IS the scaled feature transform. -/
theorem mm_ref256 (x : FVec Ideal S50000x256 .f32) (n : FVec Ideal S50000 .f32) (w : FVec Ideal S256x256 .f32) :
    Host.dotGeneral dot_S50000x256_S256x256_S50000x256_1_0_0_1_n_n none
      (mulf x (broadcastInDim S50000x256 ![0, 1] bcast_S50000x1_S50000x256_0_1 (broadcastInDim S50000x1 ![0] bcast_S50000_S50000x1_0 n))) w
      = mm256 x (colOf n) w := by
  funext i
  obtain ⟨r, q, rfl⟩ : ∃ (r : Fin 50000) (q : Fin 256), i = ix2 r q := ⟨i 0, i 1, eq_ix2 i⟩
  rw [mm256_apply]
  simp only [Host.dotGeneral]
  rw [Ideal.dotGeneral_apply, ← Equiv.sum_comp (contrEquiv1 dot_S50000x256_S256x256_S50000x256_1_0_0_1_n_n 256 rfl rfl).symm]
  refine Finset.sum_congr rfl fun k _ => ?_
  rw [lhs256_ix, rhs256_ix, mulf_apply, scale_bcast256]
  rfl

/-! ## The host's feature transform, 256 features to 128 -/

/-- The left operand's row coordinate is the output's row. -/
theorem lhs128_0 (i : S50000x128.Idx) (r : dot_S50000x256_S256x128_S50000x128_1_0_0_1_n_n.contr.Idx) : (dot_S50000x256_S256x128_S50000x128_1_0_0_1_n_n.lhsIdx i r 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
/-- The left operand's column coordinate is the contraction index. -/
theorem lhs128_1 (i : S50000x128.Idx) (r : dot_S50000x256_S256x128_S50000x128_1_0_0_1_n_n.contr.Idx) : (dot_S50000x256_S256x128_S50000x128_1_0_0_1_n_n.lhsIdx i r 1).val = (r ⟨0, by decide⟩).val :=
  dot_S50000x256_S256x128_S50000x128_1_0_0_1_n_n.lhsIdx_val_of_single rfl i r
/-- The right operand's row coordinate is the contraction index. -/
theorem rhs128_0 (i : S50000x128.Idx) (r : dot_S50000x256_S256x128_S50000x128_1_0_0_1_n_n.contr.Idx) : (dot_S50000x256_S256x128_S50000x128_1_0_0_1_n_n.rhsIdx i r 0).val = (r ⟨0, by decide⟩).val :=
  dot_S50000x256_S256x128_S50000x128_1_0_0_1_n_n.rhsIdx_val_of_single rfl i r
/-- The right operand's column coordinate is the output's column. -/
theorem rhs128_1 (i : S50000x128.Idx) (r : dot_S50000x256_S256x128_S50000x128_1_0_0_1_n_n.contr.Idx) : (dot_S50000x256_S256x128_S50000x128_1_0_0_1_n_n.rhsIdx i r 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

theorem lhs128_ix (p : Fin 50000) (q : Fin 128) (k : Fin 256) :
    dot_S50000x256_S256x128_S50000x128_1_0_0_1_n_n.lhsIdx (ix2 p q) ((contrEquiv1 dot_S50000x256_S256x128_S50000x128_1_0_0_1_n_n 256 rfl rfl).symm k) = ix2 p k := by
  have hk := contrEquiv1_symm_val dot_S50000x256_S256x128_S50000x128_1_0_0_1_n_n 256 rfl rfl k
  exact funext fun a => Fin.ext (by
    match a with
    | ⟨0, _⟩ => exact lhs128_0 _ _
    | ⟨1, _⟩ => exact (lhs128_1 _ _).trans hk)

theorem rhs128_ix (p : Fin 50000) (q : Fin 128) (k : Fin 256) :
    dot_S50000x256_S256x128_S50000x128_1_0_0_1_n_n.rhsIdx (ix2 p q) ((contrEquiv1 dot_S50000x256_S256x128_S50000x128_1_0_0_1_n_n 256 rfl rfl).symm k) = ix2 k q := by
  have hk := contrEquiv1_symm_val dot_S50000x256_S256x128_S50000x128_1_0_0_1_n_n 256 rfl rfl k
  exact funext fun a => Fin.ext (by
    match a with
    | ⟨0, _⟩ => exact (rhs128_0 _ _).trans hk
    | ⟨1, _⟩ => exact rhs128_1 _ _)

/-- The host's product of the row-scaled features with the weights IS the scaled feature transform. -/
theorem mm_ref128 (x : FVec Ideal S50000x256 .f32) (n : FVec Ideal S50000 .f32) (w : FVec Ideal S256x128 .f32) :
    Host.dotGeneral dot_S50000x256_S256x128_S50000x128_1_0_0_1_n_n none
      (mulf x (broadcastInDim S50000x256 ![0, 1] bcast_S50000x1_S50000x256_0_1 (broadcastInDim S50000x1 ![0] bcast_S50000_S50000x1_0 n))) w
      = mm128 x (colOf n) w := by
  funext i
  obtain ⟨r, q, rfl⟩ : ∃ (r : Fin 50000) (q : Fin 128), i = ix2 r q := ⟨i 0, i 1, eq_ix2 i⟩
  rw [mm128_apply]
  simp only [Host.dotGeneral]
  rw [Ideal.dotGeneral_apply, ← Equiv.sum_comp (contrEquiv1 dot_S50000x256_S256x128_S50000x128_1_0_0_1_n_n 256 rfl rfl).symm]
  refine Finset.sum_congr rfl fun k _ => ?_
  rw [lhs128_ix, rhs128_ix, mulf_apply, scale_bcast256]
  rfl

/-! ## The step after the neighbour sum -/

/-- Scale by the in-degree factor, add the bias, maximum with zero: the host's spelling is `cbRelu256`. -/
theorem cb_ref256 (m : FVec Ideal S50000x256 .f32) (n : FVec Ideal S50000 .f32) (b : FVec Ideal S256 .f32) :
    maximumf
      (addf (mulf m (broadcastInDim S50000x256 ![0, 1] bcast_S50000x1_S50000x256_0_1 (broadcastInDim S50000x1 ![0] bcast_S50000_S50000x1_0 n)))
        (broadcastInDim S50000x256 ![0, 1] bcast_S1x256_S50000x256_0_1 (broadcastInDim S1x256 ![1] bcast_S256_S1x256_1 b)))
      (broadcastInDim S50000x256 ![] bcast_S_S50000x256 (constant (F := Ideal) S_ .f32 0x00000000#32))
      = cbRelu256 m (colOf n) (rowOf256 b) := by
  funext i
  obtain ⟨r, q, rfl⟩ : ∃ (r : Fin 50000) (q : Fin 256), i = ix2 r q := ⟨i 0, i 1, eq_ix2 i⟩
  rw [cbRelu256_apply, maximumf_apply, addf_apply, mulf_apply, scale_bcast256, bias_bcast256, zero_bcast256]
  rfl

/-- Scale by the in-degree factor and add the bias (the last layer): the host's spelling is `cbLin128`. -/
theorem cb_ref128 (m : FVec Ideal S50000x128 .f32) (n : FVec Ideal S50000 .f32) (b : FVec Ideal S128 .f32) :
    addf (mulf m (broadcastInDim S50000x128 ![0, 1] bcast_S50000x1_S50000x128_0_1 (broadcastInDim S50000x1 ![0] bcast_S50000_S50000x1_0 n)))
        (broadcastInDim S50000x128 ![0, 1] bcast_S1x128_S50000x128_0_1 (broadcastInDim S1x128 ![1] bcast_S128_S1x128_1 b))
      = cbLin128 m (colOf n) (rowOf128 b) := by
  funext i
  obtain ⟨r, q, rfl⟩ : ∃ (r : Fin 50000) (q : Fin 128), i = ix2 r q := ⟨i 0, i 1, eq_ix2 i⟩
  rw [cbLin128_apply, addf_apply, mulf_apply, scale_bcast128, bias_bcast128]
  rfl

end Cert.ReferenceIdeal.Layer

end
-- ==== Proof.KernelLayout.lean ====
import proofs.«171964_j2963527434974_1_alg».proof.Proof.HostFns
import proofs.«171964_j2963527434974_1_alg».proof.Proof.Layout
import Idealize.ShloMosaic.Lib.Pipeline.Value
import Idealize.ShloMosaic.Lib.ValueLayout

/-!
The kernel program hands the degree scales and the biases to its Pallas calls through a reshape: a vector of 50000
entries becomes a 50000 × 1 matrix, a bias of n entries a 1 × n matrix. A reshape keeps the row-major order, so entry
`(r, 0)` of the column is entry `r` of the vector, and entry `(0, q)` of the row is entry `q` of the bias.
-/

noncomputable section

namespace Cert.KernelIdeal.HostFns

open Idealize.ShloMosaic Idealize.ShloMosaic.ValueIdx Cert.KernelIdeal Cert.KernelIdeal.Gen Cert.Gcn

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reshaped scale vector is the scale vector as a column. -/
theorem col_eq (n : FVec Ideal S50000 .f32) : col (F := Ideal) n = colOf n := by
  funext i
  obtain ⟨r, u, rfl⟩ : ∃ (r : Fin 50000) (u : Fin 1), i = ix2 r u := ⟨i 0, i 1, eq_ix2 i⟩
  exact shapeCast_a_a1_apply n _ r u

/-- The reshaped bias is the bias as a row (256 features). -/
theorem row256_eq (b : FVec Ideal S256 .f32) : row256 (F := Ideal) b = rowOf256 b := by
  funext i
  obtain ⟨u, q, rfl⟩ : ∃ (u : Fin 1) (q : Fin 256), i = ix2 u q := ⟨i 0, i 1, eq_ix2 i⟩
  exact shapeCast_a_1a_apply b _ u q

/-- The reshaped bias is the bias as a row (128 features). -/
theorem row128_eq (b : FVec Ideal S128 .f32) : row128 (F := Ideal) b = rowOf128 b := by
  funext i
  obtain ⟨u, q, rfl⟩ : ∃ (u : Fin 1) (q : Fin 128), i = ix2 u q := ⟨i 0, i 1, eq_ix2 i⟩
  exact shapeCast_a_1a_apply b _ u q

end Cert.KernelIdeal.HostFns

end
-- ==== Proof.RefEq.lean ====
import proofs.«171964_j2963527434974_1_alg».proof.Proof.RefRun
import proofs.«171964_j2963527434974_1_alg».proof.Proof.RefLayer
import proofs.«171964_j2963527434974_1_alg».proof.Proof.KernelLayout
import proofs.«171964_j2963527434974_1_alg».proof.Proof.Chain

/-!
The reference, layer by layer, and that each layer is the kernel program's layer.

One layer of the reference is `layerR256` (resp. `layerR128` for the last one): the degree scales, the row-scaled
product with the weights, the neighbour sum, the in-degree scale, the bias and the cut-off at zero, spelt exactly as
the reference's run spells them. Its two dense steps are the scaled feature transform and the scale–shift–cut-off of
the specification (read index by index elsewhere); everything else in it is, operation for operation, the host code
of the kernel program. So a reference layer IS a kernel-program layer, and the three results agree.
-/

set_option maxRecDepth 16384

noncomputable section

namespace Cert.ReferenceIdeal.LayerEq

open Idealize.ShloMosaic Idealize.ShloMosaic.TcCoe Idealize.SL.Sem
open Cert.ReferenceIdeal Cert.ReferenceIdeal.Gen Cert.Gcn

/-- An edge list: one node index per edge. -/
abbrev EdgesR := (⟨S800000, .i32⟩ : BufTy).Contents (Elt Ideal)

/-- The number of listed edge ends at each node. -/
def degR (e : EdgesR) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 e)
    (broadcastInDim S800000 ![] bcast_S_S800000 (constant (F := Ideal) S_ .f32 0x3F800000#32))

/-- The degree scale: the degree (1 where it is zero) to the power −1/2. -/
def scaleR (e : EdgesR) : FVec Ideal S50000 .f32 :=
  Host.powf
    (select (cmpf (F := Ideal) .ogt (degR e) (broadcastInDim S50000 ![] bcast_S_S50000 (constant (F := Ideal) S_ .f32 0x00000000#32)))
      (degR e)
      (broadcastInDim S50000 ![] bcast_S_S50000 (id (constant (F := Ideal) S_ .f32 0x3F800000#32))))
    (broadcastInDim S50000 ![] bcast_S_S50000 (constant (F := Ideal) S_ .f32 0xBF000000#32))

/-- The edge sources as gather indices. -/
def wrapR (src : EdgesR) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32)))
      src)

/-- The neighbour sum over 256 features. -/
def aggrR256 (h : FVec Ideal S50000x256 .f32) (src dst : EdgesR) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (Host.gather gather_S50000x256_S800000x1_S800000x256_1_0_n_n_0_1_1256 h (wrapR src))

/-- The neighbour sum over 128 features. -/
def aggrR128 (h : FVec Ideal S50000x128 .f32) (src dst : EdgesR) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h (wrapR src))

/-- One layer with activation, as the reference computes it. -/
def layerR256 (x : FVec Ideal S50000x256 .f32) (src dst : EdgesR) (w : FVec Ideal S256x256 .f32) (b : FVec Ideal S256 .f32) :
    FVec Ideal S50000x256 .f32 :=
  maximumf
    (addf
      (mulf
        (aggrR256
          (Host.dotGeneral dot_S50000x256_S256x256_S50000x256_1_0_0_1_n_n none
            (mulf x (broadcastInDim S50000x256 ![0, 1] bcast_S50000x1_S50000x256_0_1 (broadcastInDim S50000x1 ![0] bcast_S50000_S50000x1_0 (scaleR src)))) w)
          src dst)
        (broadcastInDim S50000x256 ![0, 1] bcast_S50000x1_S50000x256_0_1 (broadcastInDim S50000x1 ![0] bcast_S50000_S50000x1_0 (scaleR dst))))
      (broadcastInDim S50000x256 ![0, 1] bcast_S1x256_S50000x256_0_1 (broadcastInDim S1x256 ![1] bcast_S256_S1x256_1 b)))
    (broadcastInDim S50000x256 ![] bcast_S_S50000x256 (constant (F := Ideal) S_ .f32 0x00000000#32))

/-- The last layer (no activation), as the reference computes it. -/
def layerR128 (x : FVec Ideal S50000x256 .f32) (src dst : EdgesR) (w : FVec Ideal S256x128 .f32) (b : FVec Ideal S128 .f32) :
    FVec Ideal S50000x128 .f32 :=
  addf
    (mulf
      (aggrR128
        (Host.dotGeneral dot_S50000x256_S256x128_S50000x128_1_0_0_1_n_n none
          (mulf x (broadcastInDim S50000x256 ![0, 1] bcast_S50000x1_S50000x256_0_1 (broadcastInDim S50000x1 ![0] bcast_S50000_S50000x1_0 (scaleR src)))) w)
        src dst)
      (broadcastInDim S50000x128 ![0, 1] bcast_S50000x1_S50000x128_0_1 (broadcastInDim S50000x1 ![0] bcast_S50000_S50000x1_0 (scaleR dst))))
    (broadcastInDim S50000x128 ![0, 1] bcast_S1x128_S50000x128_0_1 (broadcastInDim S1x128 ![1] bcast_S128_S1x128_1 b))

/-! ## The host pieces are the kernel program's host pieces -/

theorem scaleR_eq (e : EdgesR) : scaleR e = Cert.KernelIdeal.HostFns.scale (F := Ideal) e := rfl
theorem aggrR256_eq (h : FVec Ideal S50000x256 .f32) (s d : EdgesR) : aggrR256 h s d = Cert.KernelIdeal.HostFns.aggr256 (F := Ideal) h s d := rfl
theorem aggrR128_eq (h : FVec Ideal S50000x128 .f32) (s d : EdgesR) : aggrR128 h s d = Cert.KernelIdeal.HostFns.aggr128 (F := Ideal) h s d := rfl

/-! ## A reference layer is a kernel-program layer -/

open Cert.KernelIdeal.HostFns in
/-- A layer with activation. -/
theorem layerR256_eq (x : FVec Ideal S50000x256 .f32) (src dst : EdgesR) (w : FVec Ideal S256x256 .f32) (b : FVec Ideal S256 .f32) :
    layerR256 x src dst w b
      = cbRelu256 (aggr256 (F := Ideal) (mm256 x (col (F := Ideal) (scale (F := Ideal) src)) w) src dst) (col (F := Ideal) (scale (F := Ideal) dst)) (row256 (F := Ideal) b) := by
  unfold layerR256
  rw [Layer.mm_ref256, Layer.cb_ref256, col_eq, col_eq, row256_eq, scaleR_eq, scaleR_eq, aggrR256_eq]

open Cert.KernelIdeal.HostFns in
/-- The last layer. -/
theorem layerR128_eq (x : FVec Ideal S50000x256 .f32) (src dst : EdgesR) (w : FVec Ideal S256x128 .f32) (b : FVec Ideal S128 .f32) :
    layerR128 x src dst w b
      = cbLin128 (aggr128 (F := Ideal) (mm128 x (col (F := Ideal) (scale (F := Ideal) src)) w) src dst) (col (F := Ideal) (scale (F := Ideal) dst)) (row128 (F := Ideal) b) := by
  unfold layerR128
  rw [Layer.mm_ref128, Layer.cb_ref128, col_eq, col_eq, row128_eq, scaleR_eq, scaleR_eq, aggrR128_eq]

/-! ## The reference's three results, as layers -/

variable (m' : (ℓ : Loc Cert.ReferenceIdeal.nD Cert.ReferenceIdeal.τ Cert.ReferenceIdeal.sig) → Buf (Elt Ideal) ℓ) (c : Dev Cert.ReferenceIdeal.nD)

/-- The second result is two layers. -/
theorem out1_layers : Cert.ReferenceIdeal.ValueP.res_main_v75 (F := Ideal) m' c = layerR256 (layerR256 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) := by
  unfold Cert.ReferenceIdeal.ValueP.res_main_v75; rfl

/-- The third (and fourth) result is three layers. -/
theorem out2_layers : Cert.ReferenceIdeal.ValueP.res_main_v112 (F := Ideal) m' c = layerR128 (layerR256 (layerR256 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) := by
  unfold Cert.ReferenceIdeal.ValueP.res_main_v112; rfl

/-! ## From memories that agree on the arguments the layers are the kernel program's -/

variable (m : (ℓ : Loc Cert.KernelIdeal.nD Cert.KernelIdeal.τ Cert.KernelIdeal.sig) → Buf (Elt Ideal) ℓ)
  (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
  (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))

include e0 e1 e2 e3 e4 in
/-- Layer 1. -/
theorem layer1_eq : layerR256 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = Cert.KernelIdeal.Chain.h0 m c := by
  rw [e0, e1, e2, e3, e4]
  exact layerR256_eq _ _ _ _ _

include e0 e1 e2 e3 e4 e5 e6 in
/-- Layer 2. -/
theorem layer2_eq : layerR256 (layerR256 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = Cert.KernelIdeal.Chain.h1 m c := by
  rw [layer1_eq m' c m e0 e1 e2 e3 e4, e1, e2, e5, e6]
  exact layerR256_eq _ _ _ _ _

include e0 e1 e2 e3 e4 e5 e6 e7 e8 in
/-- Layer 3. -/
theorem layer3_eq : layerR128 (layerR256 (layerR256 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = Cert.KernelIdeal.Chain.h2 m c := by
  rw [layer2_eq m' c m e0 e1 e2 e3 e4 e5 e6, e1, e2, e7, e8]
  exact layerR128_eq _ _ _ _ _

end Cert.ReferenceIdeal.LayerEq

end
-- ==== Proof.lean ====
/-
  A three-layer graph convolution: per layer the node features are scaled by the out-degree factor and multiplied by
  the layer's weights, summed over each node's incoming edges, scaled by the in-degree factor and shifted by the bias,
  and — but in the last layer — cut off below at zero. The kernel program does the two dense steps of every layer in
  Pallas calls (six in all, each over 25 tiles of 2000 nodes) and everything irregular on the host; the reference does
  all of it on the host.

  Over the extended reals the two programs compute the same three arrays. The host operations are the same operation
  for operation. A Pallas call's tiles each hold whole rows, so a tile's matrix product is the same sum over the 256
  input features as the reference's product at those rows, the change of float format before it being the identity;
  and the second dense step is entrywise. No law that needs finite inputs is used: the sums are the same sums in the
  same order of terms.

  The pieces: the tiles read at an index (TileMM*, TileCB*), from tiles to whole arrays (Region0 … Region5), the host
  stretches (HostG0 … HostG5), the buffers followed through the whole program (Chain) under its run with the results
  named (KernelRun), the reference's dense steps read at an index (RefLayer) and its layers matched with the kernel
  program's (RefEq).
-/
import proofs.«171964_j2963527434974_1_alg».proof.Defs
import proofs.«171964_j2963527434974_1_alg».proof.Proof.Gen.Kernel
import proofs.«171964_j2963527434974_1_alg».proof.Proof.Gen.Kernel.Frame
import proofs.«171964_j2963527434974_1_alg».proof.Proof.Gen.KernelIdeal
import proofs.«171964_j2963527434974_1_alg».proof.Proof.Gen.KernelIdeal.Frame
import proofs.«171964_j2963527434974_1_alg».proof.Proof.Gen.ReferenceIdeal
import proofs.«171964_j2963527434974_1_alg».proof.Proof.Gen.Pre_finite_inputs
import proofs.«171964_j2963527434974_1_alg».proof.Proof.RefRun
import proofs.«171964_j2963527434974_1_alg».proof.Proof.KernelRun
import proofs.«171964_j2963527434974_1_alg».proof.Proof.Chain
import proofs.«171964_j2963527434974_1_alg».proof.Proof.RefEq
import Idealize.ShloMosaic.Adequacy
import Idealize.ShloMosaic.Init

set_option maxRecDepth 16384

noncomputable section

namespace Cert.Proof

open Idealize.ShloMosaic Idealize.SL.Sem

/-- The kernel program as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the four results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- The two idealized programs, from memories that agree on the arguments, end with the same three layer outputs
    (the last one returned twice). -/
theorem algebraic : Cert.algebraic_KernelIdeal_ReferenceIdeal := by
  intro m ρ m' ρ' _ hagree
  refine ⟨fun c => Cert.KernelIdeal.Chain.h0 m c, fun c => Cert.KernelIdeal.Chain.h1 m c,
    fun c => Cert.KernelIdeal.Chain.h2 m c, fun c => Cert.KernelIdeal.Chain.h2 m c, ?_, ?_⟩
  · refine (θ_run Cert.KernelIdeal.defs _ _).mono (fun r h c => ?_) (Cert.KernelIdeal.Named.run_named (F := Ideal) m ρ)
    obtain ⟨r0, r1, r2, rest⟩ := h c
    exact ⟨r0.trans (Cert.KernelIdeal.Chain.B24_v31 m ρ c), r1.trans (Cert.KernelIdeal.Chain.B24_v63 m ρ c),
      r2.trans (Cert.KernelIdeal.Chain.B24_v95 m ρ c), r2.trans (Cert.KernelIdeal.Chain.B24_v95 m ρ c), rest⟩
  · refine (θ_run Cert.ReferenceIdeal.defs _ _).mono (fun r h c => ?_) (Cert.ReferenceIdeal.ValueP.run (F := Ideal) m' ρ')
    obtain ⟨r0, r1, r2, r3, rest⟩ := h c
    obtain ⟨e0, e1, e2, e3, e4, e5, e6, e7, e8⟩ := hagree c
    exact ⟨r0.trans (Cert.ReferenceIdeal.LayerEq.layer1_eq m' c m e0 e1 e2 e3 e4),
      (r1.trans (Cert.ReferenceIdeal.LayerEq.out1_layers m' c)).trans (Cert.ReferenceIdeal.LayerEq.layer2_eq m' c m e0 e1 e2 e3 e4 e5 e6),
      (r2.trans (Cert.ReferenceIdeal.LayerEq.out2_layers m' c)).trans (Cert.ReferenceIdeal.LayerEq.layer3_eq m' c m e0 e1 e2 e3 e4 e5 e6 e7 e8),
      (r3.trans (Cert.ReferenceIdeal.LayerEq.out2_layers m' c)).trans (Cert.ReferenceIdeal.LayerEq.layer3_eq m' c m e0 e1 e2 e3 e4 e5 e6 e7 e8),
      rest⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
